-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S16x3 : Shape := ⟨2, ![16, 3]⟩
abbrev S3 : Shape := ⟨1, ![3]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg8 : FVec F S16 .f32) (main_arg9 : FVec F S32x16 .f32) (main_arg10 : FVec F S16x3 .f32) (main_arg11 : FVec F S3 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S32x16 .f32 := Host.absf main_arg9
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16x3 .f32 := Host.absf main_arg10
  let main_cst_16 : FVec F S_ .f32 := constant S_ .f32 0x7F800000#32
  let main_v45 : FVec F S16x3 .f32 := broadcastInDim S16x3 ![] bcast_S_S16x3 main_cst_16
  let main_v46 : IVec S16x3 1 := cmpf .olt main_v44 main_v45
  let main_c_17 : IVec S_ 1 := constantI S_ 1 1#1
  let main_v47 : IVec S_ 1 := (fun x v => Host.reduce IntOp.andi x v reducesTo_S16x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg5 : FVec F S32 .f32) (main_arg6 : FVec F S16x32 .f32) (main_arg7 : FVec F S32x16 .f32) (main_arg8 : FVec F S16 .f32) (main_arg9 : FVec F S32x16 .f32) (main_arg10 : FVec F S16x3 .f32) (main_arg11 : FVec F S3 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S16x32 .f32 := Host.absf main_arg6
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x512 .f32) (main_arg1 : IVec S2x3200000 32) (main_arg2 : FVec F S512x16 .f32) (main_arg3 : FVec F S16 .f32) (main_arg4 : FVec F S16x32 .f32) (main_arg5 : FVec F S32 .f32) (main_arg6 : FVec F S16x32 .f32) (main_arg7 : FVec F S32x16 .f32) (main_arg8 : FVec F S16 .f32) (main_arg9 : FVec F S32x16 .f32) (main_arg10 : FVec F S16x3 .f32) (main_arg11 : FVec F S3 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_arg10 main_arg11 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S16x3 : Shape := ⟨2, ![16, 3]⟩
abbrev S3 : Shape := ⟨1, ![3]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x16 : Shape := ⟨2, ![1, 16]⟩
abbrev S100000x16 : Shape := ⟨2, ![100000, 16]⟩
abbrev S5000x512 : Shape := ⟨2, ![5000, 512]⟩
abbrev S5000x16 : Shape := ⟨2, ![5000, 16]⟩
abbrev S3200000x16 : Shape := ⟨2, ![3200000, 16]⟩
abbrev S1x32 : Shape := ⟨2, ![1, 32]⟩
abbrev S100000x32 : Shape := ⟨2, ![100000, 32]⟩
abbrev S5000x32 : Shape := ⟨2, ![5000, 32]⟩
abbrev S3200000x32 : Shape := ⟨2, ![3200000, 32]⟩
abbrev S1x3 : Shape := ⟨2, ![1, 3]⟩
abbrev S100000x3 : Shape := ⟨2, ![100000, 3]⟩
abbrev S5000x3 : Shape := ⟨2, ![5000, 3]⟩

abbrev nBuf : Space → Nat
  | .hbm => 67
  | .vmem => 30
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S16x32, .f32⟩
  | .hbm, ⟨7, _⟩ => ⟨S32x16, .f32⟩
  | .hbm, ⟨8, _⟩ => ⟨S16, .f32⟩
  | .hbm, ⟨9, _⟩ => ⟨S32x16, .f32⟩
  | .hbm, ⟨10, _⟩ => ⟨S16x3, .f32⟩
  | .hbm, ⟨11, _⟩ => ⟨S3, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .f32⟩
  | .hbm, ⟨17, _⟩ => ⟨S3200000, .f32⟩
  | .hbm, ⟨18, _⟩ => ⟨S_, .f32⟩
  | .hbm, ⟨19, _⟩ => ⟨S100000, .f32⟩
  | .hbm, ⟨20, _⟩ => ⟨S3200000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S1x16, .f32⟩
  | .hbm, ⟨30, _⟩ => ⟨S100000x16, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x16, .f32⟩
  | .hbm, ⟨40, _⟩ => ⟨S_, .f32⟩
  | .hbm, ⟨41, _⟩ => ⟨S100000x16, .f32⟩
  | .hbm, ⟨42, _⟩ => ⟨S3200000x1, .i32⟩
  | .hbm, ⟨43, _⟩ => ⟨S100000x16, .f32⟩
  | .hbm, ⟨44, _⟩ => ⟨S100000x16, .f32⟩
  | .hbm, ⟨45, _⟩ => ⟨S100000x16, .f32⟩
  | .hbm, ⟨46, _⟩ => ⟨S1x32, .f32⟩
  | .hbm, ⟨47, _⟩ => ⟨S100000x32, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x32, .f32⟩
  | .hbm, ⟨57, _⟩ => ⟨S_, .f32⟩
  | .hbm, ⟨58, _⟩ => ⟨S100000x32, .f32⟩
  | .hbm, ⟨59, _⟩ => ⟨S3200000x1, .i32⟩
  | .hbm, ⟨60, _⟩ => ⟨S100000x32, .f32⟩
  | .hbm, ⟨61, _⟩ => ⟨S100000x32, .f32⟩
  | .hbm, ⟨62, _⟩ => ⟨S100000x32, .f32⟩
  | .hbm, ⟨63, _⟩ => ⟨S1x16, .f32⟩
  | .hbm, ⟨64, _⟩ => ⟨S100000x16, .f32⟩
  | .hbm, ⟨65, _⟩ => ⟨S1x3, .f32⟩
  | .hbm, ⟨66, _⟩ => ⟨S100000x3, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S1x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S16x32, .f32⟩
  | .local _ .vmem, ⟨11, _⟩ => ⟨S1x32, .f32⟩
  | .local _ .vmem, ⟨12, _⟩ => ⟨S16x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S32x16, .f32⟩
  | .local _ .vmem, ⟨20, _⟩ => ⟨S1x16, .f32⟩
  | .local _ .vmem, ⟨21, _⟩ => ⟨S32x16, .f32⟩
  | .local _ .vmem, ⟨22, _⟩ => ⟨S5000x16, .f32⟩
  | .local _ .vmem, ⟨23, _⟩ => ⟨S5000x16, .f32⟩
  | .local _ .vmem, ⟨24, _⟩ => ⟨S5000x16, .f32⟩
  | .local _ .vmem, ⟨25, _⟩ => ⟨S5000x16, .f32⟩
  | .local _ .vmem, ⟨26, _⟩ => ⟨S16x3, .f32⟩
  | .local _ .vmem, ⟨27, _⟩ => ⟨S1x3, .f32⟩
  | .local _ .vmem, ⟨28, _⟩ => ⟨S5000x3, .f32⟩
  | .local _ .vmem, ⟨29, _⟩ => ⟨S5000x3, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x3 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  shapeCasts_S16_S1x16 : S16.ShapeCasts S1x16
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S32_S1x32 : S32.ShapeCasts S1x32
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  shapeCasts_S3_S1x3 : S3.ShapeCasts S1x3
  inb_S16x3_S16x3_0_0 : ∀ a, (![0, 0] : Fin 2 → Nat) a + S16x3.size a ≤ S16x3.size a
  h_S16x3 : 0 < S16x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  rotates_S5000x3_d1 : S5000x3.Rotates 1 none
  iota_S5000x3_d1_w32 : S5000x3.Iotas .tc 32 [1]
  inb_S5000x3_S5000x3_0_0 : ∀ a, (![0, 0] : Fin 2 → Nat) a + S5000x3.size a ≤ S5000x3.size a
  h_S5000x3 : 0 < S5000x3.numel
  scatter_S100000_S3200000x1_S3200000_n_0_0_1_wf : ScatterDims.WF S100000 S3200000x1 S3200000 [] [0] [0] 1
  dot_S5000x512_S512x16_S5000x16_1_0_0_1_n_n_wf : DotDims.WF S5000x512 S512x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x32_S5000x32_1_0_0_1_n_n_wf : DotDims.WF S5000x16 S16x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x16_S5000x16_1_0_0_1_n_n_wf : DotDims.WF S5000x32 S32x16 S5000x16 [1] [0] [0] [1] [] []
  dot_S5000x16_S16x3_S5000x3_1_0_0_1_n_n_wf : DotDims.WF S5000x16 S16x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x16.size a ≤ S32x16.size a
  hwx2_4 : ∀ i : grid2.Coords, EltTy.bits .f32 = 32 ∨ (Rect.block (s := S32x16) S32x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x3.size a ≤ S16x3.size a
  hwx3_1 : ∀ i : grid3.Coords, EltTy.bits .f32 = 32 ∨ (Rect.block (s := S16x3) S16x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3.size a ≤ S1x3.size a
  hwx3_2 : ∀ i : grid3.Coords, EltTy.bits .f32 = 32 ∨ (Rect.block (s := S1x3) S1x3.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x3.size a ≤ S100000x3.size a
  hwx3_3 : ∀ i : grid3.Coords, EltTy.bits .f32 = 32 ∨ (Rect.block (s := S100000x3) S5000x3.size (cc3_transform_3 i) (hinb3_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x3_S5000x3_1_0_0_1_n_n : DotDims S5000x16 S16x3 S5000x3 where
  lhsContracting := [1]
  rhsContracting := [0]
  lhsNonContracting := [0]
  rhsNonContracting := [1]
  lhsBatch := []
  rhsBatch := []
  wf := dot_S5000x16_S16x3_S5000x3_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S32x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S16x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S5000x3.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S16x3 : Shape := ⟨2, ![16, 3]⟩
abbrev S3 : Shape := ⟨1, ![3]⟩
abbrev S1x3200000 : Shape := ⟨2, ![1, 3200000]⟩
abbrev S3200000 : Shape := ⟨1, ![3200000]⟩
abbrev S100000x16 : Shape := ⟨2, ![100000, 16]⟩
abbrev S1x16 : Shape := ⟨2, ![1, 16]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S3200000x32 : Shape := ⟨2, ![3200000, 32]⟩
abbrev S100000x3 : Shape := ⟨2, ![100000, 3]⟩
abbrev S1x3 : Shape := ⟨2, ![1, 3]⟩

abbrev nBuf : Space → Nat
  | .hbm => 125
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S16x32, .f32⟩
  | .hbm, ⟨7, _⟩ => ⟨S32x16, .f32⟩
  | .hbm, ⟨8, _⟩ => ⟨S16, .f32⟩
  | .hbm, ⟨9, _⟩ => ⟨S32x16, .f32⟩
  | .hbm, ⟨10, _⟩ => ⟨S16x3, .f32⟩
  | .hbm, ⟨11, _⟩ => ⟨S3, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S100000x16, .f32⟩
  | .hbm, ⟨17, _⟩ => ⟨S1x16, .f32⟩
  | .hbm, ⟨18, _⟩ => ⟨S100000x16, .f32⟩
  | .hbm, ⟨19, _⟩ => ⟨S100000x16, .f32⟩
  | .hbm, ⟨20, _⟩ => ⟨S_, .f32⟩
  | .hbm, ⟨21, _⟩ => ⟨S100000x16, .f32⟩
  | .hbm, ⟨22, _⟩ => ⟨S100000x16, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000x16, .f32⟩
  | .hbm, ⟨32, _⟩ => ⟨S_, .f32⟩
  | .hbm, ⟨33, _⟩ => ⟨S100000x16, .f32⟩
  | .hbm, ⟨34, _⟩ => ⟨S3200000x1, .i32⟩
  | .hbm, ⟨35, _⟩ => ⟨S100000x16, .f32⟩
  | .hbm, ⟨36, _⟩ => ⟨S_, .f32⟩
  | .hbm, ⟨37, _⟩ => ⟨S3200000, .f32⟩
  | .hbm, ⟨38, _⟩ => ⟨S_, .f32⟩
  | .hbm, ⟨39, _⟩ => ⟨S100000, .f32⟩
  | .hbm, ⟨40, _⟩ => ⟨S3200000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x16, .f32⟩
  | .hbm, ⟨47, _⟩ => ⟨S100000x16, .f32⟩
  | .hbm, ⟨48, _⟩ => ⟨S100000x32, .f32⟩
  | .hbm, ⟨49, _⟩ => ⟨S1x32, .f32⟩
  | .hbm, ⟨50, _⟩ => ⟨S100000x32, .f32⟩
  | .hbm, ⟨51, _⟩ => ⟨S100000x32, .f32⟩
  | .hbm, ⟨52, _⟩ => ⟨S100000x32, .f32⟩
  | .hbm, ⟨53, _⟩ => ⟨S100000x32, .f32⟩
  | .hbm, ⟨54, _⟩ => ⟨S_, .f32⟩
  | .hbm, ⟨55, _⟩ => ⟨S100000x32, .f32⟩
  | .hbm, ⟨56, _⟩ => ⟨S100000x32, .f32⟩
  | .hbm, ⟨57, _⟩ => ⟨S_, .i32⟩
  | .hbm, ⟨58, _⟩ => ⟨S3200000, .i32⟩
  | .hbm, ⟨59, _⟩ => ⟨S3200000, .i1⟩
  | .hbm, ⟨60, _⟩ => ⟨S_, .i32⟩
  | .hbm, ⟨61, _⟩ => ⟨S3200000, .i32⟩
  | .hbm, ⟨62, _⟩ => ⟨S3200000, .i32⟩
  | .hbm, ⟨63, _⟩ => ⟨S3200000, .i32⟩
  | .hbm, ⟨64, _⟩ => ⟨S3200000x1, .i32⟩
  | .hbm, ⟨65, _⟩ => ⟨S3200000x32, .f32⟩
  | .hbm, ⟨66, _⟩ => ⟨S_, .f32⟩
  | .hbm, ⟨67, _⟩ => ⟨S100000x32, .f32⟩
  | .hbm, ⟨68, _⟩ => ⟨S3200000x1, .i32⟩
  | .hbm, ⟨69, _⟩ => ⟨S100000x32, .f32⟩
  | .hbm, ⟨70, _⟩ => ⟨S_, .f32⟩
  | .hbm, ⟨71, _⟩ => ⟨S3200000, .f32⟩
  | .hbm, ⟨72, _⟩ => ⟨S_, .f32⟩
  | .hbm, ⟨73, _⟩ => ⟨S100000, .f32⟩
  | .hbm, ⟨74, _⟩ => ⟨S3200000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000x1, .f32⟩
  | .hbm, ⟨80, _⟩ => ⟨S100000x32, .f32⟩
  | .hbm, ⟨81, _⟩ => ⟨S100000x32, .f32⟩
  | .hbm, ⟨82, _⟩ => ⟨S100000x16, .f32⟩
  | .hbm, ⟨83, _⟩ => ⟨S1x16, .f32⟩
  | .hbm, ⟨84, _⟩ => ⟨S100000x16, .f32⟩
  | .hbm, ⟨85, _⟩ => ⟨S100000x16, .f32⟩
  | .hbm, ⟨86, _⟩ => ⟨S100000x16, .f32⟩
  | .hbm, ⟨87, _⟩ => ⟨S100000x16, .f32⟩
  | .hbm, ⟨88, _⟩ => ⟨S_, .f32⟩
  | .hbm, ⟨89, _⟩ => ⟨S100000x16, .f32⟩
  | .hbm, ⟨90, _⟩ => ⟨S100000x16, .f32⟩
  | .hbm, ⟨91, _⟩ => ⟨S100000x3, .f32⟩
  | .hbm, ⟨92, _⟩ => ⟨S1x3, .f32⟩
  | .hbm, ⟨93, _⟩ => ⟨S100000x3, .f32⟩
  | .hbm, ⟨94, _⟩ => ⟨S100000x3, .f32⟩
  | .hbm, ⟨95, _⟩ => ⟨S100000x1, .f32⟩
  | .hbm, ⟨96, _⟩ => ⟨S100000, .f32⟩
  | .hbm, ⟨97, _⟩ => ⟨S100000, .f32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000, .f32⟩
  | .hbm, ⟨107, _⟩ => ⟨S100000, .f32⟩
  | .hbm, ⟨108, _⟩ => ⟨S100000, .f32⟩
  | .hbm, ⟨109, _⟩ => ⟨S_, .f32⟩
  | .hbm, ⟨110, _⟩ => ⟨S100000, .f32⟩
  | .hbm, ⟨111, _⟩ => ⟨S100000, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000, .f32⟩
  | .hbm, ⟨117, _⟩ => ⟨S_, .f32⟩
  | .hbm, ⟨118, _⟩ => ⟨S100000, .f32⟩
  | .hbm, ⟨119, _⟩ => ⟨S100000, .f32⟩
  | .hbm, ⟨120, _⟩ => ⟨S100000, .f32⟩
  | .hbm, ⟨121, _⟩ => ⟨S100000x1, .f32⟩
  | .hbm, ⟨122, _⟩ => ⟨S100000x1, .f32⟩
  | .hbm, ⟨123, _⟩ => ⟨S100000x1, .f32⟩
  | .hbm, ⟨124, _⟩ => ⟨S100000x3, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_cst : Ref sig .tc := ⟨.hbm, 54, rfl⟩
abbrev main_call1_v0 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call2_cst : Ref sig .tc := ⟨.hbm, 88, rfl⟩
abbrev main_call2_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_10 : Ref sig .tc := ⟨.hbm, 99, rfl⟩
abbrev main_v69 : Ref sig .tc := ⟨.hbm, 100, rfl⟩
abbrev main_v70 : Ref sig .tc := ⟨.hbm, 101, rfl⟩
abbrev main_cst_11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  slices_S100000x3_S100000x1_0_1 : S100000x3.Slices ![0, 1] S100000x1
  shapeCasts_S100000x1_S100000 : S100000x1.ShapeCasts S100000
  slices_S100000x3_S100000x1_0_2 : S100000x3.Slices ![0, 2] S100000x1
  slices_S100000x3_S100000x1_0_0 : S100000x3.Slices ![0, 0] S100000x1
  concatenates_S100000x1_S100000x1_S100000x1_S100000x3_d1 : Shape.Concatenates [S100000x1, S100000x1, S100000x1] S100000x3 1
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S100000x16_S16x32_S100000x32_1_0_0_1_n_n_wf : DotDims.WF S100000x16 S16x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  dot_S100000x16_S16x3_S100000x3_1_0_0_1_n_n_wf : DotDims.WF S100000x16 S16x3 S100000x3 [1] [0] [0] [1] [] []

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x3_S100000x3_1_0_0_1_n_n : DotDims S100000x16 S16x3 S100000x3 where
  lhsContracting := [1]
  rhsContracting := [0]
  lhsNonContracting := [0]
  rhsNonContracting := [1]
  lhsBatch := []
  rhsBatch := []
  wf := dot_S100000x16_S16x3_S100000x3_1_0_0_1_n_n_wf

class Facts : Prop extends Facts₀ where

variable [Facts]
-- ==== Proof.Spec.lean ====
/-
  What the kernel computes, stage by stage, as arrays of extended reals.

  A two-layer mean-aggregating graph network over 100000 nodes and 3200000 directed edges `src → dst`:
    h0  = relu(x · w1 + b1)                                         (100000 × 16)
    m1  = (Σ over edges into a node of h0 at the edge's source) · (1 / max(cnt, 1))
    h1  = relu((m1 · wl1 + bl1) + h0 · wr1)                          (100000 × 32)
    m2  = the same mean of h1
    h2  = relu((m2 · wl2 + bl2) + h1 · wr2)                          (100000 × 16)
    z   = h2 · w2 + b2                                               (100000 × 3)
    out = [relu(z₀) + σ(z₁), σ(z₁), σ(z₂)]
  where `cnt` counts the edges into each node and `σ` is the logistic function. The dense stages are the four
  pallas_calls, stated here entry by entry over the host's matrix product; the index plumbing, the gather of source
  rows and the accumulating scatter onto destination rows are host operations, kept here as the operations they are.
-/
import proofs.«107298_j55241869361537_1_alg».proof.Proof.Gen.KernelIdeal
import Idealize.ShloMosaic.Lib.ValueIdx

noncomputable section

namespace Cert.KernelIdeal.Spec

open Cert.KernelIdeal Cert.KernelIdeal.Gen Idealize.ShloMosaic Idealize.ShloMosaic.ValueIdx

/-! ## The dense stages, entry by entry -/

/-- Entry `(p, q)` of `relu(x · w + b)`: the host's product at that entry, plus the bias of column `q`, clamped at zero. -/
def denseAt (X : FVec Ideal S100000x512 .f32) (W : FVec Ideal S512x16 .f32) (B : FVec Ideal S1x16 .f32)
    (p : Fin 100000) (q : Fin 16) : EReal :=
  max (Host.dotGeneral (DotDims.plain 100000 512 16) none X W (ix2 p q) + B (ix2 (0 : Fin 1) q)) (Ideal.ofBits .f32 0x00000000#32)

/-- `relu(x · w + b)` as an array of 100000 × 16 extended reals. -/
def dense (X : FVec Ideal S100000x512 .f32) (W : FVec Ideal S512x16 .f32) (B : FVec Ideal S1x16 .f32) :
    FVec Ideal S100000x16 .f32 :=
  fun i => denseAt X W B ⟨(i 0).val, (i 0).isLt⟩ ⟨(i 1).val, (i 1).isLt⟩

/-- Entry `(p, q)` of `relu((m · wl + bl) + h · wr)`, 16 features in, 32 out. -/
def combineUpAt (M H : FVec Ideal S100000x16 .f32) (Wl : FVec Ideal S16x32 .f32) (B : FVec Ideal S1x32 .f32)
    (Wr : FVec Ideal S16x32 .f32) (p : Fin 100000) (q : Fin 32) : EReal :=
  max ((Host.dotGeneral (DotDims.plain 100000 16 32) none M Wl (ix2 p q) + B (ix2 (0 : Fin 1) q))
    + Host.dotGeneral (DotDims.plain 100000 16 32) none H Wr (ix2 p q)) (Ideal.ofBits .f32 0x00000000#32)

/-- `relu((m · wl + bl) + h · wr)` as an array of 100000 × 32 extended reals. -/
def combineUp (M H : FVec Ideal S100000x16 .f32) (Wl : FVec Ideal S16x32 .f32) (B : FVec Ideal S1x32 .f32)
    (Wr : FVec Ideal S16x32 .f32) : FVec Ideal S100000x32 .f32 :=
  fun i => combineUpAt M H Wl B Wr ⟨(i 0).val, (i 0).isLt⟩ ⟨(i 1).val, (i 1).isLt⟩

/-- Entry `(p, q)` of `relu((m · wl + bl) + h · wr)`, 32 features in, 16 out. -/
def combineDownAt (M H : FVec Ideal S100000x32 .f32) (Wl : FVec Ideal S32x16 .f32) (B : FVec Ideal S1x16 .f32)
    (Wr : FVec Ideal S32x16 .f32) (p : Fin 100000) (q : Fin 16) : EReal :=
  max ((Host.dotGeneral (DotDims.plain 100000 32 16) none M Wl (ix2 p q) + B (ix2 (0 : Fin 1) q))
    + Host.dotGeneral (DotDims.plain 100000 32 16) none H Wr (ix2 p q)) (Ideal.ofBits .f32 0x00000000#32)

/-- `relu((m · wl + bl) + h · wr)` as an array of 100000 × 16 extended reals. -/
def combineDown (M H : FVec Ideal S100000x32 .f32) (Wl : FVec Ideal S32x16 .f32) (B : FVec Ideal S1x16 .f32)
    (Wr : FVec Ideal S32x16 .f32) : FVec Ideal S100000x16 .f32 :=
  fun i => combineDownAt M H Wl B Wr ⟨(i 0).val, (i 0).isLt⟩ ⟨(i 1).val, (i 1).isLt⟩

/-- The logit `z = h · w + b` at entry `(p, j)`. -/
def logitAt (H : FVec Ideal S100000x16 .f32) (W : FVec Ideal S16x3 .f32) (B : FVec Ideal S1x3 .f32)
    (p : Fin 100000) (j : Fin 3) : EReal :=
  Host.dotGeneral (DotDims.plain 100000 16 3) none H W (ix2 p j) + B (ix2 (0 : Fin 1) j)

/-- Entry `(p, j)` of the output: column 0 is `relu(z₀) + σ(z₁)`, columns 1 and 2 are `σ` of their own logit. -/
def headAt (H : FVec Ideal S100000x16 .f32) (W : FVec Ideal S16x3 .f32) (B : FVec Ideal S1x3 .f32)
    (p : Fin 100000) (j : Fin 3) : EReal :=
  if j.val = 0 then max (logitAt H W B p 0) (Ideal.ofBits .f32 0x00000000#32) + Ideal.logistic (logitAt H W B p 1)
  else Ideal.logistic (logitAt H W B p j)

/-- The output as an array of 100000 × 3 extended reals. -/
def head (H : FVec Ideal S100000x16 .f32) (W : FVec Ideal S16x3 .f32) (B : FVec Ideal S1x3 .f32) :
    FVec Ideal S100000x3 .f32 :=
  fun i => headAt H W B ⟨(i 0).val, (i 0).isLt⟩ ⟨(i 1).val, (i 1).isLt⟩

/-! ## The host stages between them -/

/-- The edges' source nodes: row 0 of the edge list. -/
def src (E : IVec S2x3200000 32) : IVec S3200000 32 :=
  shapeCast S3200000 (extractStridedSlice S1x3200000 ![0, 0] E slices_S2x3200000_S1x3200000_0_0) shapeCasts_S1x3200000_S3200000

/-- The edges' destination nodes: row 1 of the edge list. -/
def dst (E : IVec S2x3200000 32) : IVec S3200000 32 :=
  shapeCast S3200000 (extractStridedSlice S1x3200000 ![1, 0] E slices_S2x3200000_S1x3200000_1_0) shapeCasts_S1x3200000_S3200000

/-- The gather's index column: a negative source counts from the end. -/
def srcCol (E : IVec S2x3200000 32) : IVec S3200000x1 32 :=
  broadcastInDim S3200000x1 ![0] bcast_S3200000_S3200000x1_0
    (select (cmpi .slt (src E) (broadcastInDim S3200000 ![] bcast_S_S3200000 (constantI S_ 32 0#32)))
      (addi (src E) (broadcastInDim S3200000 ![] bcast_S_S3200000 (constantI S_ 32 100000#32))) (src E))

/-- The scatter's index column: the destinations. -/
def dstCol (E : IVec S2x3200000 32) : IVec S3200000x1 32 :=
  broadcastInDim S3200000x1 ![0] bcast_S3200000_S3200000x1_0 (dst E)

/-- The number of edges into each node: ones accumulated onto zeros at the destinations. -/
def cnt (E : IVec S2x3200000 32) : FVec Ideal S100000 .f32 :=
  Host.scatterAdd scatter_S100000_S3200000x1_S3200000_n_0_0_1
    (broadcastInDim S100000 ![] bcast_S_S100000 (constant (F := Ideal) S_ .f32 0x00000000#32)) (dstCol E)
    (broadcastInDim S3200000 ![] bcast_S_S3200000 (constant (F := Ideal) S_ .f32 0x3F800000#32))

/-- The reciprocal `1 / max(cnt, 1)`, as a column. -/
def cntInv (E : IVec S2x3200000 32) : FVec Ideal S100000x1 .f32 :=
  broadcastInDim S100000x1 ![0] bcast_S100000_S100000x1_0
    (Host.divf (broadcastInDim S100000 ![] bcast_S_S100000 (constant (F := Ideal) S_ .f32 0x3F800000#32))
      (maximumf (cnt E) (broadcastInDim S100000 ![] bcast_S_S100000 (constant (F := Ideal) S_ .f32 0x3F800000#32))))

/-- The sum over the edges into each node of the source's 16 features. -/
def agg16 (E : IVec S2x3200000 32) (H : FVec Ideal S100000x16 .f32) : FVec Ideal S100000x16 .f32 :=
  Host.scatterAdd scatter_S100000x16_S3200000x1_S3200000x16_1_0_0_1
    (broadcastInDim S100000x16 ![] bcast_S_S100000x16 (constant (F := Ideal) S_ .f32 0x00000000#32)) (dstCol E)
    (Host.gather gather_S100000x16_S3200000x1_S3200000x16_1_0_n_n_0_1_116 H (srcCol E))

/-- The mean over the edges into each node, 16 features: the sum times the reciprocal count. -/
def mean16 (E : IVec S2x3200000 32) (H : FVec Ideal S100000x16 .f32) : FVec Ideal S100000x16 .f32 :=
  mulf (agg16 E H) (broadcastInDim S100000x16 ![0, 1] bcast_S100000x1_S100000x16_0_1 (cntInv E))

/-- The sum over the edges into each node of the source's 32 features. -/
def agg32 (E : IVec S2x3200000 32) (H : FVec Ideal S100000x32 .f32) : FVec Ideal S100000x32 .f32 :=
  Host.scatterAdd scatter_S100000x32_S3200000x1_S3200000x32_1_0_0_1
    (broadcastInDim S100000x32 ![] bcast_S_S100000x32 (constant (F := Ideal) S_ .f32 0x00000000#32)) (dstCol E)
    (Host.gather gather_S100000x32_S3200000x1_S3200000x32_1_0_n_n_0_1_132 H (srcCol E))

/-- The mean over the edges into each node, 32 features. -/
def mean32 (E : IVec S2x3200000 32) (H : FVec Ideal S100000x32 .f32) : FVec Ideal S100000x32 .f32 :=
  mulf (agg32 E H) (broadcastInDim S100000x32 ![0, 1] bcast_S100000x1_S100000x32_0_1 (cntInv E))

/-! ## The network, stage by stage, as functions of the argument arrays -/

/-- `h0`. -/
def h0 (X : FVec Ideal S100000x512 .f32) (W1 : FVec Ideal S512x16 .f32) (b1 : FVec Ideal S16 .f32) :
    FVec Ideal S100000x16 .f32 :=
  dense X W1 (shapeCast S1x16 b1 shapeCasts_S16_S1x16)

/-- `h1`. -/
def h1 (X : FVec Ideal S100000x512 .f32) (E : IVec S2x3200000 32) (W1 : FVec Ideal S512x16 .f32) (b1 : FVec Ideal S16 .f32)
    (Wl1 : FVec Ideal S16x32 .f32) (bl1 : FVec Ideal S32 .f32) (Wr1 : FVec Ideal S16x32 .f32) : FVec Ideal S100000x32 .f32 :=
  combineUp (mean16 E (h0 X W1 b1)) (h0 X W1 b1) Wl1 (shapeCast S1x32 bl1 shapeCasts_S32_S1x32) Wr1

/-- `h2`. -/
def h2 (X : FVec Ideal S100000x512 .f32) (E : IVec S2x3200000 32) (W1 : FVec Ideal S512x16 .f32) (b1 : FVec Ideal S16 .f32)
    (Wl1 : FVec Ideal S16x32 .f32) (bl1 : FVec Ideal S32 .f32) (Wr1 : FVec Ideal S16x32 .f32)
    (Wl2 : FVec Ideal S32x16 .f32) (bl2 : FVec Ideal S16 .f32) (Wr2 : FVec Ideal S32x16 .f32) : FVec Ideal S100000x16 .f32 :=
  combineDown (mean32 E (h1 X E W1 b1 Wl1 bl1 Wr1)) (h1 X E W1 b1 Wl1 bl1 Wr1) Wl2 (shapeCast S1x16 bl2 shapeCasts_S16_S1x16) Wr2

/-- The kernel's result. -/
def out (X : FVec Ideal S100000x512 .f32) (E : IVec S2x3200000 32) (W1 : FVec Ideal S512x16 .f32) (b1 : FVec Ideal S16 .f32)
    (Wl1 : FVec Ideal S16x32 .f32) (bl1 : FVec Ideal S32 .f32) (Wr1 : FVec Ideal S16x32 .f32)
    (Wl2 : FVec Ideal S32x16 .f32) (bl2 : FVec Ideal S16 .f32) (Wr2 : FVec Ideal S32x16 .f32)
    (W2 : FVec Ideal S16x3 .f32) (b2 : FVec Ideal S3 .f32) : FVec Ideal S100000x3 .f32 :=
  head (h2 X E W1 b1 Wl1 bl1 Wr1 Wl2 bl2 Wr2) W2 (shapeCast S1x3 b2 shapeCasts_S3_S1x3)

end Cert.KernelIdeal.Spec

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«107298_j55241869361537_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.RegionFc1.lean ====
/-
  The first dense layer, as one array.

  The first pallas_call computes `h0 = relu(x · w + b)` for 100000 rows of 512 features, 5000 rows per grid point,
  the whole 512×16 weight and the 1×16 bias at every point. Row `p` of point `t`'s block is row `5000·t + p` of the
  array, so the block's product on the vector unit, entry by entry, is the whole product `x · w` of the host at
  that row (a sum of the same 512 terms); adding the bias row and clamping at zero are entrywise. The twenty blocks
  tile the rows, so the output array ends as `dense x w b`, whatever the region found in its three operands.
-/
import proofs.«107298_j55241869361537_1_alg».proof.Proof.Gen.KernelIdeal.Frame
import proofs.«107298_j55241869361537_1_alg».proof.Proof.LibRowBlock
import proofs.«107298_j55241869361537_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Fc1

open Cert.KernelIdeal Cert.KernelIdeal.Gen Cert.KernelIdeal.Spec Idealize.ShloMosaic Idealize.ShloMosaic.TcCoe Idealize.ShloMosaic.ValueIdx Idealize.SL.Sem

/-- What a grid point stores at entry `(p, q)` of its block, when row `p` of its rows is row `P` of the array. -/
theorem pay_at (x : Vec Ideal S5000x512 .f32) (w : Vec Ideal S512x16 .f32) (b : Vec Ideal S1x16 .f32)
    (X : FVec Ideal S100000x512 .f32) (W : FVec Ideal S512x16 .f32) (B : FVec Ideal S1x16 .f32)
    (P : Fin 100000) (p : Fin 5000) (q : Fin 16)
    (hx : ∀ k : Fin 512, (x (ix2 p k) : EReal) = X (ix2 P k)) (hw : ∀ k : Fin 512, (w (ix2 k q) : EReal) = W (ix2 k q))
    (hb : (b (ix2 (0 : Fin 1) q) : EReal) = B (ix2 (0 : Fin 1) q)) :
    k0_pay1 x w b (ix2 p q) = denseAt X W B P q := by
  have hm : matmul dot_S5000x512_S512x16_S5000x16_1_0_0_1_n_n none (truncf (F := Ideal) .bf16 x bitsLt_bf16_f32)
        (truncf (F := Ideal) .bf16 w bitsLt_bf16_f32) (constant (F := Ideal) S5000x16 .f32 0x00000000#32) (ix2 p q)
      = Host.dotGeneral (DotDims.plain 100000 512 16) none X W (ix2 P q) :=
    Cert.Lib.RowBlock.matmul_eq_dotGeneral none none .single X W _ _ P p q hx hw
  have hbc : broadcastTo S5000x16 (shapeCast S1x16 b shapeCasts_S1x16_S1x16) broadcasts_S1x16_S5000x16 (ix2 p q)
      = B (ix2 (0 : Fin 1) q) := by
    rw [broadcastTo_1b_ab_apply, shapeCast_self]; exact hb
  unfold k0_pay1 denseAt
  show max (_ + _) _ = max (_ + _) _
  rw [hm, hbc]
  rfl

/-- The zero offsets of a whole-block access. -/
theorem hz : (![0, 0] : Fin 2 → Nat) = fun _ => 0 := funext fun a => by fin_cases a <;> rfl

/-- The printed index maps over the twenty grid points: the rows move with the point, everything else stays. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

/-- Every block of rows is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

variable (V : (c : Dev nD) → (b : Ref sig .tc) → Buf (Elt Ideal) ((c : Thread nD τ).loc b))

/-- What point `t` writes back is block `t` of `dense` of the operands as the region finds them. -/
theorem flushed_eq (c : Dev nD) (t : Fin cfg0.N) :
    (dat0 V c).flushed 3 t
      = ((cfg0.win 3).blk t).view.read (Elt Ideal) (dense (V c main_arg0) (V c main_arg2) (V c main_v13)) := by
  show (cfg0.win 3).cut (grid0.coords t) ((dat0 V c).after 3 t) = _
  rw [after0_3]
  unfold out0_3
  rw [View.canon_unit_zero hz]
  simp only [View.ld_unit_zero (S := S5000x512) hz, View.ld_unit_zero (S := S512x16) hz, View.ld_unit_zero (S := S1x16) hz]
  obtain ⟨e0, e1, e2, e3, e4, e5, e6, e7⟩ := idx_facts t
  funext j
  obtain ⟨p, q, rfl⟩ : ∃ (p : Fin 5000) (q : Fin 16), j = ix2 p q := ⟨j 0, j 1, eq_ix2 j⟩
  have hp : p.val < 5000 := p.isLt
  have hq : q.val < 16 := q.isLt
  refine (pay_at (iblk0 V c 0 t) (iblk0 V c 1 t) (iblk0 V c 2 t) (V c main_arg0) (V c main_arg2) (V c main_v13)
    ⟨win0_3.index t (0 : Fin 2) * 5000 + p.val, by omega⟩ p q ?_ ?_ ?_).trans ?_
  · intro k
    have hk : k.val < 512 := k.isLt
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 512 + 1 * k.val = k.val; omega
  · intro k
    have hk : k.val < 512 := k.isLt
    show V c main_arg2 (((cfg0.win 1).blk t).view.emb (ix2 k q)) = V c main_arg2 _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 16 + 1 * q.val = q.val; omega
  · show V c main_v13 (((cfg0.win 2).blk t).view.emb (ix2 (0 : Fin 1) q)) = V c main_v13 _
    refine congrArg (V c main_v13) (funext fun a => Fin.ext ?_)
    match a with
    | ⟨0, _⟩ => show win0_2.index t (0 : Fin 2) * 1 + 1 * 0 = 0; omega
    | ⟨1, _⟩ => show win0_2.index t (1 : Fin 2) * 16 + 1 * q.val = q.val; omega
  · show denseAt _ _ _ _ _ = denseAt _ _ _ _ _
    congr 1
    · exact Fin.ext (by show win0_3.index t (0 : Fin 2) * 5000 + p.val = win0_3.index t (0 : Fin 2) * 5000 + 1 * p.val; omega)
    · exact Fin.ext (by show q.val = win0_3.index t (1 : Fin 2) * 16 + 1 * q.val; omega)

/-- An index of the array is in point `t`'s block iff each coordinate is in the block's range on its axis. -/
theorem mem_blk (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v14).slice (win0_3.rect t)).set ↔ _
  rw [View.set_slice_whole, Rect.mem_set_unit]
  exact Iff.rfl

/-- The twenty blocks of 5000 rows tile the array. -/
theorem cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 16 ≤ (i 1).val ∧ (i 1).val < win0_3.index t (1 : Fin 2) * 16 + 16; omega

/-- The output array after the region: `relu(x · w + b)` of the three operands as the region finds them. -/
theorem final (c : Dev nD) :
    (dat0 V c).arrAt 3 cfg0.N = dense (V c main_arg0) (V c main_arg2) (V c main_v13) :=
  (dat0 V c).arrAt_eq_of_cover 3 _ (fun t _ => flushed_eq V c t) cover

end Cert.KernelIdeal.Fc1

end
-- ==== Proof.RegionConvUp.lean ====
/-
  The first graph-convolution combine stage, as one array.

  The pallas_call computes `relu((m · wl + bl) + h · wr)` for 100000 rows, 5000 rows per grid point, with both
  16×32 weights and the 1×32 bias whole at every point. Row `p` of point `t`'s two row blocks is row
  `5000·t + p` of the arrays `m` and `h`, so each of the block's two products on the vector unit is, entry by entry,
  the host's whole product at that row; the bias row, the sum of the two products and the clamp at zero are
  entrywise. The twenty blocks tile the rows, so the output array ends as the whole-array expression of the five
  operands as the region finds them.
-/
import proofs.«107298_j55241869361537_1_alg».proof.Proof.Gen.KernelIdeal.Frame
import proofs.«107298_j55241869361537_1_alg».proof.Proof.LibRowBlock
import proofs.«107298_j55241869361537_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.ConvUp

open Cert.KernelIdeal Cert.KernelIdeal.Gen Cert.KernelIdeal.Spec Idealize.ShloMosaic Idealize.ShloMosaic.TcCoe Idealize.ShloMosaic.ValueIdx Idealize.SL.Sem

/-- What a grid point stores at entry `(p, q)` of its block, when row `p` of its two row blocks is row `P` of the arrays. -/
theorem pay_at (m h : Vec Ideal S5000x16 .f32) (wl wr : Vec Ideal S16x32 .f32) (b : Vec Ideal S1x32 .f32)
    (M H : FVec Ideal S100000x16 .f32) (Wl Wr : FVec Ideal S16x32 .f32) (B : FVec Ideal S1x32 .f32)
    (P : Fin 100000) (p : Fin 5000) (q : Fin 32)
    (hm : ∀ k : Fin 16, (m (ix2 p k) : EReal) = M (ix2 P k)) (hh : ∀ k : Fin 16, (h (ix2 p k) : EReal) = H (ix2 P k))
    (hwl : ∀ k : Fin 16, (wl (ix2 k q) : EReal) = Wl (ix2 k q)) (hwr : ∀ k : Fin 16, (wr (ix2 k q) : EReal) = Wr (ix2 k q))
    (hb : (b (ix2 (0 : Fin 1) q) : EReal) = B (ix2 (0 : Fin 1) q)) :
    k1_pay1 m h wl wr b (ix2 p q) = combineUpAt M H Wl B Wr P q := by
  have h1 : matmul dot_S5000x16_S16x32_S5000x32_1_0_0_1_n_n none
        (truncf (F := Ideal) .bf16 (shapeCast S5000x16 m shapeCasts_S5000x16_S5000x16) bitsLt_bf16_f32)
        (truncf (F := Ideal) .bf16 wl bitsLt_bf16_f32) (constant (F := Ideal) S5000x32 .f32 0x00000000#32) (ix2 p q)
      = Host.dotGeneral (DotDims.plain 100000 16 32) none M Wl (ix2 P q) :=
    Cert.Lib.RowBlock.matmul_eq_dotGeneral none none .single M Wl _ _ P p q
      (fun k => (congrFun (shapeCast_self m shapeCasts_S5000x16_S5000x16) (ix2 p k)).trans (hm k)) hwl
  have h2 : matmul dot_S5000x16_S16x32_S5000x32_1_0_0_1_n_n none
        (truncf (F := Ideal) .bf16 (shapeCast S5000x16 h shapeCasts_S5000x16_S5000x16) bitsLt_bf16_f32)
        (truncf (F := Ideal) .bf16 wr bitsLt_bf16_f32) (constant (F := Ideal) S5000x32 .f32 0x00000000#32) (ix2 p q)
      = Host.dotGeneral (DotDims.plain 100000 16 32) none H Wr (ix2 P q) :=
    Cert.Lib.RowBlock.matmul_eq_dotGeneral none none .single H Wr _ _ P p q
      (fun k => (congrFun (shapeCast_self h shapeCasts_S5000x16_S5000x16) (ix2 p k)).trans (hh k)) hwr
  have hbc : broadcastTo S5000x32 (shapeCast S1x32 b shapeCasts_S1x32_S1x32) broadcasts_S1x32_S5000x32 (ix2 p q)
      = B (ix2 (0 : Fin 1) q) := by
    rw [broadcastTo_1b_ab_apply, shapeCast_self]; exact hb
  unfold k1_pay1 combineUpAt
  show max ((_ + _) + _) _ = max ((_ + _) + _) _
  rw [h1, hbc, h2]
  rfl

/-- The zero offsets of a whole-block access. -/
theorem hz : (![0, 0] : Fin 2 → Nat) = fun _ => 0 := funext fun a => by fin_cases a <;> rfl

/-- The printed index maps over the twenty grid points: the two row blocks move with the point, everything else stays. -/
theorem idx_facts : ∀ t : Fin cfg1.N, win1_0.index t (0 : Fin 2) = win1_5.index t (0 : Fin 2)
    ∧ win1_0.index t (1 : Fin 2) = 0 ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every block of rows is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

variable (V : (c : Dev nD) → (b : Ref sig .tc) → Buf (Elt Ideal) ((c : Thread nD τ).loc b))

/-- What point `t` writes back is block `t` of the whole-array expression of the operands as the region finds them. -/
theorem flushed_eq (c : Dev nD) (t : Fin cfg1.N) :
    (dat1 V c).flushed 5 t
      = ((cfg1.win 5).blk t).view.read (Elt Ideal)
          (combineUp (V c main_v26) (V c main_v14) (V c main_arg4) (V c main_v27) (V c main_arg6)) := by
  show (cfg1.win 5).cut (grid1.coords t) ((dat1 V c).after 5 t) = _
  rw [after1_5]
  unfold out1_5
  rw [View.canon_unit_zero hz]
  simp only [View.ld_unit_zero (S := S5000x16) hz, View.ld_unit_zero (S := S16x32) hz, View.ld_unit_zero (S := S1x32) hz]
  obtain ⟨e0, e1, e2, e3, e4, e5, e6, e7, e8, e9, e10, e11⟩ := idx_facts t
  funext j
  obtain ⟨p, q, rfl⟩ : ∃ (p : Fin 5000) (q : Fin 32), j = ix2 p q := ⟨j 0, j 1, eq_ix2 j⟩
  have hp : p.val < 5000 := p.isLt
  have hq : q.val < 32 := q.isLt
  refine (pay_at (iblk1 V c 0 t) (iblk1 V c 1 t) (iblk1 V c 2 t) (iblk1 V c 4 t) (iblk1 V c 3 t)
    (V c main_v26) (V c main_v14) (V c main_arg4) (V c main_arg6) (V c main_v27)
    ⟨win1_5.index t (0 : Fin 2) * 5000 + p.val, by omega⟩ p q ?_ ?_ ?_ ?_ ?_).trans ?_
  · intro k
    have hk : k.val < 16 := k.isLt
    show V c main_v26 (((cfg1.win 0).blk t).view.emb (ix2 p k)) = V c main_v26 _
    refine congrArg (V c main_v26) (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 16 + 1 * k.val = k.val; omega
  · intro k
    have hk : k.val < 16 := k.isLt
    show V c main_v14 (((cfg1.win 1).blk t).view.emb (ix2 p k)) = V c main_v14 _
    refine congrArg (V c main_v14) (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 16 + 1 * k.val = k.val; omega
  · intro k
    have hk : k.val < 16 := k.isLt
    show V c main_arg4 (((cfg1.win 2).blk t).view.emb (ix2 k q)) = V c main_arg4 _
    refine congrArg (V c main_arg4) (funext fun a => Fin.ext ?_)
    match a with
    | ⟨0, _⟩ => show win1_2.index t (0 : Fin 2) * 16 + 1 * k.val = k.val; omega
    | ⟨1, _⟩ => show win1_2.index t (1 : Fin 2) * 32 + 1 * q.val = q.val; omega
  · intro k
    have hk : k.val < 16 := k.isLt
    show V c main_arg6 (((cfg1.win 4).blk t).view.emb (ix2 k q)) = V c main_arg6 _
    refine congrArg (V c main_arg6) (funext fun a => Fin.ext ?_)
    match a with
    | ⟨0, _⟩ => show win1_4.index t (0 : Fin 2) * 16 + 1 * k.val = k.val; omega
    | ⟨1, _⟩ => show win1_4.index t (1 : Fin 2) * 32 + 1 * q.val = q.val; omega
  · show V c main_v27 (((cfg1.win 3).blk t).view.emb (ix2 (0 : Fin 1) q)) = V c main_v27 _
    refine congrArg (V c main_v27) (funext fun a => Fin.ext ?_)
    match a with
    | ⟨0, _⟩ => show win1_3.index t (0 : Fin 2) * 1 + 1 * 0 = 0; omega
    | ⟨1, _⟩ => show win1_3.index t (1 : Fin 2) * 32 + 1 * q.val = q.val; omega
  · show combineUpAt _ _ _ _ _ _ _ = combineUpAt _ _ _ _ _ _ _
    congr 1
    · exact Fin.ext (by show win1_5.index t (0 : Fin 2) * 5000 + p.val = win1_5.index t (0 : Fin 2) * 5000 + 1 * p.val; omega)
    · exact Fin.ext (by show q.val = win1_5.index t (1 : Fin 2) * 32 + 1 * q.val; omega)

/-- An index of the array is in point `t`'s block iff each coordinate is in the block's range on its axis. -/
theorem mem_blk (t : Fin cfg1.N) (i : S100000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v28).slice (win1_5.rect t)).set ↔ _
  rw [View.set_slice_whole, Rect.mem_set_unit]
  exact Iff.rfl

/-- The twenty blocks of 5000 rows tile the array. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 32 ≤ (i 1).val ∧ (i 1).val < win1_5.index t (1 : Fin 2) * 32 + 32; omega

/-- The output array after the region: the whole-array expression of the five operands as the region finds them. -/
theorem final (c : Dev nD) :
    (dat1 V c).arrAt 5 cfg1.N
      = combineUp (V c main_v26) (V c main_v14) (V c main_arg4) (V c main_v27) (V c main_arg6) :=
  (dat1 V c).arrAt_eq_of_cover 5 _ (fun t _ => flushed_eq V c t) cover

end Cert.KernelIdeal.ConvUp

end
-- ==== Proof.RegionConvDown.lean ====
/-
  The second graph-convolution combine stage, as one array.

  The pallas_call computes `relu((m · wl + bl) + h · wr)` for 100000 rows, 5000 rows per grid point, with both
  32×16 weights and the 1×16 bias whole at every point. Row `p` of point `t`'s two row blocks is row
  `5000·t + p` of the arrays `m` and `h`, so each of the block's two products on the vector unit is, entry by entry,
  the host's whole product at that row; the bias row, the sum of the two products and the clamp at zero are
  entrywise. The twenty blocks tile the rows, so the output array ends as the whole-array expression of the five
  operands as the region finds them.
-/
import proofs.«107298_j55241869361537_1_alg».proof.Proof.Gen.KernelIdeal.Frame
import proofs.«107298_j55241869361537_1_alg».proof.Proof.LibRowBlock
import proofs.«107298_j55241869361537_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.ConvDown

open Cert.KernelIdeal Cert.KernelIdeal.Gen Cert.KernelIdeal.Spec Idealize.ShloMosaic Idealize.ShloMosaic.TcCoe Idealize.ShloMosaic.ValueIdx Idealize.SL.Sem

/-- What a grid point stores at entry `(p, q)` of its block, when row `p` of its two row blocks is row `P` of the arrays. -/
theorem pay_at (m h : Vec Ideal S5000x32 .f32) (wl wr : Vec Ideal S32x16 .f32) (b : Vec Ideal S1x16 .f32)
    (M H : FVec Ideal S100000x32 .f32) (Wl Wr : FVec Ideal S32x16 .f32) (B : FVec Ideal S1x16 .f32)
    (P : Fin 100000) (p : Fin 5000) (q : Fin 16)
    (hm : ∀ k : Fin 32, (m (ix2 p k) : EReal) = M (ix2 P k)) (hh : ∀ k : Fin 32, (h (ix2 p k) : EReal) = H (ix2 P k))
    (hwl : ∀ k : Fin 32, (wl (ix2 k q) : EReal) = Wl (ix2 k q)) (hwr : ∀ k : Fin 32, (wr (ix2 k q) : EReal) = Wr (ix2 k q))
    (hb : (b (ix2 (0 : Fin 1) q) : EReal) = B (ix2 (0 : Fin 1) q)) :
    k2_pay1 m h wl wr b (ix2 p q) = combineDownAt M H Wl B Wr P q := by
  have h1 : matmul dot_S5000x32_S32x16_S5000x16_1_0_0_1_n_n none
        (truncf (F := Ideal) .bf16 (shapeCast S5000x32 m shapeCasts_S5000x32_S5000x32) bitsLt_bf16_f32)
        (truncf (F := Ideal) .bf16 wl bitsLt_bf16_f32) (constant (F := Ideal) S5000x16 .f32 0x00000000#32) (ix2 p q)
      = Host.dotGeneral (DotDims.plain 100000 32 16) none M Wl (ix2 P q) :=
    Cert.Lib.RowBlock.matmul_eq_dotGeneral none none .single M Wl _ _ P p q
      (fun k => (congrFun (shapeCast_self m shapeCasts_S5000x32_S5000x32) (ix2 p k)).trans (hm k)) hwl
  have h2 : matmul dot_S5000x32_S32x16_S5000x16_1_0_0_1_n_n none
        (truncf (F := Ideal) .bf16 (shapeCast S5000x32 h shapeCasts_S5000x32_S5000x32) bitsLt_bf16_f32)
        (truncf (F := Ideal) .bf16 wr bitsLt_bf16_f32) (constant (F := Ideal) S5000x16 .f32 0x00000000#32) (ix2 p q)
      = Host.dotGeneral (DotDims.plain 100000 32 16) none H Wr (ix2 P q) :=
    Cert.Lib.RowBlock.matmul_eq_dotGeneral none none .single H Wr _ _ P p q
      (fun k => (congrFun (shapeCast_self h shapeCasts_S5000x32_S5000x32) (ix2 p k)).trans (hh k)) hwr
  have hbc : broadcastTo S5000x16 (shapeCast S1x16 b shapeCasts_S1x16_S1x16) broadcasts_S1x16_S5000x16 (ix2 p q)
      = B (ix2 (0 : Fin 1) q) := by
    rw [broadcastTo_1b_ab_apply, shapeCast_self]; exact hb
  unfold k2_pay1 combineDownAt
  show max ((_ + _) + _) _ = max ((_ + _) + _) _
  rw [h1, hbc, h2]
  rfl

/-- The zero offsets of a whole-block access. -/
theorem hz : (![0, 0] : Fin 2 → Nat) = fun _ => 0 := funext fun a => by fin_cases a <;> rfl

/-- The printed index maps over the twenty grid points: the two row blocks move with the point, everything else stays. -/
theorem idx_facts : ∀ t : Fin cfg2.N, win2_0.index t (0 : Fin 2) = win2_5.index t (0 : Fin 2)
    ∧ win2_0.index t (1 : Fin 2) = 0 ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 19 :=
  (by decide +kernel : ∀ t : Fin grid2.N, _)

/-- Every block of rows is some point's. -/
theorem idx_onto : ∀ q0 : Fin 20, ∃ t : Fin cfg2.N, win2_5.index t = ![q0.val, 0] :=
  (by decide +kernel : ∀ q0 : Fin 20, ∃ t : Fin grid2.N, win2_5.index t = ![q0.val, 0])

variable (V : (c : Dev nD) → (b : Ref sig .tc) → Buf (Elt Ideal) ((c : Thread nD τ).loc b))

/-- What point `t` writes back is block `t` of the whole-array expression of the operands as the region finds them. -/
theorem flushed_eq (c : Dev nD) (t : Fin cfg2.N) :
    (dat2 V c).flushed 5 t
      = ((cfg2.win 5).blk t).view.read (Elt Ideal)
          (combineDown (V c main_v40) (V c main_v28) (V c main_arg7) (V c main_v41) (V c main_arg9)) := by
  show (cfg2.win 5).cut (grid2.coords t) ((dat2 V c).after 5 t) = _
  rw [after2_5]
  unfold out2_5
  rw [View.canon_unit_zero hz]
  simp only [View.ld_unit_zero (S := S5000x32) hz, View.ld_unit_zero (S := S32x16) hz, View.ld_unit_zero (S := S1x16) hz]
  obtain ⟨e0, e1, e2, e3, e4, e5, e6, e7, e8, e9, e10, e11⟩ := idx_facts t
  funext j
  obtain ⟨p, q, rfl⟩ : ∃ (p : Fin 5000) (q : Fin 16), j = ix2 p q := ⟨j 0, j 1, eq_ix2 j⟩
  have hp : p.val < 5000 := p.isLt
  have hq : q.val < 16 := q.isLt
  refine (pay_at (iblk2 V c 0 t) (iblk2 V c 1 t) (iblk2 V c 2 t) (iblk2 V c 4 t) (iblk2 V c 3 t)
    (V c main_v40) (V c main_v28) (V c main_arg7) (V c main_arg9) (V c main_v41)
    ⟨win2_5.index t (0 : Fin 2) * 5000 + p.val, by omega⟩ p q ?_ ?_ ?_ ?_ ?_).trans ?_
  · intro k
    have hk : k.val < 32 := k.isLt
    show V c main_v40 (((cfg2.win 0).blk t).view.emb (ix2 p k)) = V c main_v40 _
    refine congrArg (V c main_v40) (funext fun a => Fin.ext ?_)
    match a with
    | ⟨0, _⟩ => show win2_0.index t (0 : Fin 2) * 5000 + 1 * p.val = win2_5.index t (0 : Fin 2) * 5000 + p.val; omega
    | ⟨1, _⟩ => show win2_0.index t (1 : Fin 2) * 32 + 1 * k.val = k.val; omega
  · intro k
    have hk : k.val < 32 := k.isLt
    show V c main_v28 (((cfg2.win 1).blk t).view.emb (ix2 p k)) = V c main_v28 _
    refine congrArg (V c main_v28) (funext fun a => Fin.ext ?_)
    match a with
    | ⟨0, _⟩ => show win2_1.index t (0 : Fin 2) * 5000 + 1 * p.val = win2_5.index t (0 : Fin 2) * 5000 + p.val; omega
    | ⟨1, _⟩ => show win2_1.index t (1 : Fin 2) * 32 + 1 * k.val = k.val; omega
  · intro k
    have hk : k.val < 32 := k.isLt
    show V c main_arg7 (((cfg2.win 2).blk t).view.emb (ix2 k q)) = V c main_arg7 _
    refine congrArg (V c main_arg7) (funext fun a => Fin.ext ?_)
    match a with
    | ⟨0, _⟩ => show win2_2.index t (0 : Fin 2) * 32 + 1 * k.val = k.val; omega
    | ⟨1, _⟩ => show win2_2.index t (1 : Fin 2) * 16 + 1 * q.val = q.val; omega
  · intro k
    have hk : k.val < 32 := k.isLt
    show V c main_arg9 (((cfg2.win 4).blk t).view.emb (ix2 k q)) = V c main_arg9 _
    refine congrArg (V c main_arg9) (funext fun a => Fin.ext ?_)
    match a with
    | ⟨0, _⟩ => show win2_4.index t (0 : Fin 2) * 32 + 1 * k.val = k.val; omega
    | ⟨1, _⟩ => show win2_4.index t (1 : Fin 2) * 16 + 1 * q.val = q.val; omega
  · show V c main_v41 (((cfg2.win 3).blk t).view.emb (ix2 (0 : Fin 1) q)) = V c main_v41 _
    refine congrArg (V c main_v41) (funext fun a => Fin.ext ?_)
    match a with
    | ⟨0, _⟩ => show win2_3.index t (0 : Fin 2) * 1 + 1 * 0 = 0; omega
    | ⟨1, _⟩ => show win2_3.index t (1 : Fin 2) * 16 + 1 * q.val = q.val; omega
  · show combineDownAt _ _ _ _ _ _ _ = combineDownAt _ _ _ _ _ _ _
    congr 1
    · exact Fin.ext (by show win2_5.index t (0 : Fin 2) * 5000 + p.val = win2_5.index t (0 : Fin 2) * 5000 + 1 * p.val; omega)
    · exact Fin.ext (by show q.val = win2_5.index t (1 : Fin 2) * 16 + 1 * q.val; omega)

/-- An index of the array is in point `t`'s block iff each coordinate is in the block's range on its axis. -/
theorem mem_blk (t : Fin cfg2.N) (i : S100000x16.Idx) :
    i ∈ ((cfg2.win 5).blk t).view.set ↔ ∀ a : Fin 2, win2_5.index t a * S5000x16.size a ≤ (i a).val
      ∧ (i a).val < win2_5.index t a * S5000x16.size a + S5000x16.size a := by
  show i ∈ ((View.whole main_v42).slice (win2_5.rect t)).set ↔ _
  rw [View.set_slice_whole, Rect.mem_set_unit]
  exact Iff.rfl

/-- The twenty blocks of 5000 rows tile the array. -/
theorem cover (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 16 ≤ (i 1).val ∧ (i 1).val < win2_5.index t (1 : Fin 2) * 16 + 16; omega

/-- The output array after the region: the whole-array expression of the five operands as the region finds them. -/
theorem final (c : Dev nD) :
    (dat2 V c).arrAt 5 cfg2.N
      = combineDown (V c main_v40) (V c main_v28) (V c main_arg7) (V c main_v41) (V c main_arg9) :=
  (dat2 V c).arrAt_eq_of_cover 5 _ (fun t _ => flushed_eq V c t) cover

end Cert.KernelIdeal.ConvDown

end
-- ==== Proof.RegionHead.lean ====
/-
  The output head, as one array.

  The last pallas_call computes the logits `z = h · w + b` for 100000 rows of 16 features and 3 outputs, 5000 rows
  per grid point, and from them `[relu(z₀) + σ(z₁), σ(z₁), σ(z₂)]`. In the body the three columns of `σ(z)` are
  rotated along the width-3 axis by two places, which puts column 1 under column 0; a column index compared with
  zero then selects `relu(z) + rotated` in column 0 and `σ(z)` elsewhere. Row `p` of point `t`'s block is row
  `5000·t + p` of the array, the block's product is the host's whole product at that row, and the twenty blocks
  tile the rows.
-/
import proofs.«107298_j55241869361537_1_alg».proof.Proof.Gen.KernelIdeal.Frame
import proofs.«107298_j55241869361537_1_alg».proof.Proof.LibRowBlock
import proofs.«107298_j55241869361537_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Head

open Cert.KernelIdeal Cert.KernelIdeal.Gen Cert.KernelIdeal.Spec Idealize.ShloMosaic Idealize.ShloMosaic.TcCoe Idealize.ShloMosaic.ValueIdx Idealize.SL.Sem

/-- From a block of logits to the block of outputs, at entry `(p, j)`: the rotation by two of a width-3 axis reads
    column `(j + 1) mod 3`, and the selection keeps the sum in column 0 only. -/
theorem head_of_logits (z : FVec Ideal S5000x3 .f32) (p : Fin 5000) (j : Fin 3) :
    select (cmpi .eq (iota .tc S5000x3 32 [1] iota_S5000x3_d1_w32) (broadcast S5000x3 (0#32 : BitVec 32)))
        (addf (maximumf z (broadcast S5000x3 (Scalar.ofBits (F := Ideal) .f32 0x00000000#32)))
          (dynamicRotate 1 2#32 none (logistic z) rotates_S5000x3_d1))
        (logistic z) (ix2 p j)
      = if j.val = 0 then max (z (ix2 p 0)) (Ideal.ofBits .f32 0x00000000#32) + Ideal.logistic (z (ix2 p 1))
        else Ideal.logistic (z (ix2 p j)) := by
  show Scalar.select (IntOp.cmpi .eq (iota .tc S5000x3 32 [1] iota_S5000x3_d1_w32 (ix2 p j)) (0#32)) _ _ = _
  rw [iota_single_apply]
  match j with
  | ⟨0, _⟩ =>
    rw [if_pos rfl]
    show (if IntOp.cmpi .eq (BitVec.ofNat 32 0) (0#32) = 1 then _ else _) = _
    rw [if_pos (by decide)]
    show max _ _ + Ideal.logistic (z _) = max _ _ + Ideal.logistic (z _)
    refine congrArg (fun i => max (z (ix2 p 0)) (Ideal.ofBits .f32 0x00000000#32) + Ideal.logistic (z i)) (funext fun b => ?_)
    match b with
    | ⟨0, _⟩ => rfl
    | ⟨1, _⟩ => rfl
  | ⟨1, _⟩ =>
    rw [if_neg (by show ¬ (1 : ℕ) = 0; decide)]
    show (if IntOp.cmpi .eq (BitVec.ofNat 32 1) (0#32) = 1 then _ else _) = _
    rw [if_neg (by decide)]
    rfl
  | ⟨2, _⟩ =>
    rw [if_neg (by show ¬ (2 : ℕ) = 0; decide)]
    show (if IntOp.cmpi .eq (BitVec.ofNat 32 2) (0#32) = 1 then _ else _) = _
    rw [if_neg (by decide)]
    rfl

/-- What a grid point stores at entry `(p, j)` of its block, when row `p` of its rows is row `P` of the array. -/
theorem pay_at (x : Vec Ideal S5000x16 .f32) (w : Vec Ideal S16x3 .f32) (b : Vec Ideal S1x3 .f32)
    (H : FVec Ideal S100000x16 .f32) (W : FVec Ideal S16x3 .f32) (B : FVec Ideal S1x3 .f32)
    (P : Fin 100000) (p : Fin 5000) (j : Fin 3)
    (hx : ∀ k : Fin 16, (x (ix2 p k) : EReal) = H (ix2 P k))
    (hw : ∀ (k : Fin 16) (j' : Fin 3), (w (ix2 k j') : EReal) = W (ix2 k j'))
    (hb : ∀ j' : Fin 3, (b (ix2 (0 : Fin 1) j') : EReal) = B (ix2 (0 : Fin 1) j')) :
    k3_pay1 x w b (ix2 p j) = headAt H W B P j := by
  have lg : ∀ j' : Fin 3, (addf (matmul dot_S5000x16_S16x3_S5000x3_1_0_0_1_n_n none
          (truncf (F := Ideal) .bf16 (shapeCast S5000x16 x shapeCasts_S5000x16_S5000x16) bitsLt_bf16_f32)
          (truncf (F := Ideal) .bf16 w bitsLt_bf16_f32) (constant (F := Ideal) S5000x3 .f32 0x00000000#32))
        (broadcastTo S5000x3 (shapeCast S1x3 b shapeCasts_S1x3_S1x3) broadcasts_S1x3_S5000x3)) (ix2 p j') = logitAt H W B P j' := by
    intro j'
    have h1 : matmul dot_S5000x16_S16x3_S5000x3_1_0_0_1_n_n none
          (truncf (F := Ideal) .bf16 (shapeCast S5000x16 x shapeCasts_S5000x16_S5000x16) bitsLt_bf16_f32)
          (truncf (F := Ideal) .bf16 w bitsLt_bf16_f32) (constant (F := Ideal) S5000x3 .f32 0x00000000#32) (ix2 p j')
        = Host.dotGeneral (DotDims.plain 100000 16 3) none H W (ix2 P j') :=
      Cert.Lib.RowBlock.matmul_eq_dotGeneral none none .single H W _ _ P p j'
        (fun k => (congrFun (shapeCast_self x shapeCasts_S5000x16_S5000x16) (ix2 p k)).trans (hx k)) (fun k => hw k j')
    have hbc : broadcastTo S5000x3 (shapeCast S1x3 b shapeCasts_S1x3_S1x3) broadcasts_S1x3_S5000x3 (ix2 p j')
        = B (ix2 (0 : Fin 1) j') := by
      rw [broadcastTo_1b_ab_apply, shapeCast_self]; exact hb j'
    unfold logitAt
    show _ + _ = _ + _
    rw [h1, hbc]
  unfold k3_pay1 headAt
  refine (head_of_logits (addf (matmul dot_S5000x16_S16x3_S5000x3_1_0_0_1_n_n none
          (truncf (F := Ideal) .bf16 (shapeCast S5000x16 x shapeCasts_S5000x16_S5000x16) bitsLt_bf16_f32)
          (truncf (F := Ideal) .bf16 w bitsLt_bf16_f32) (constant (F := Ideal) S5000x3 .f32 0x00000000#32))
        (broadcastTo S5000x3 (shapeCast S1x3 b shapeCasts_S1x3_S1x3) broadcasts_S1x3_S5000x3)) p j).trans ?_
  rw [lg 0, lg 1, lg j]

/-- The zero offsets of a whole-block access. -/
theorem hz : (![0, 0] : Fin 2 → Nat) = fun _ => 0 := funext fun a => by fin_cases a <;> rfl

/-- The printed index maps over the twenty grid points: the rows move with the point, everything else stays. -/
theorem idx_facts : ∀ t : Fin cfg3.N, win3_0.index t (0 : Fin 2) = win3_3.index t (0 : Fin 2)
    ∧ win3_0.index t (1 : Fin 2) = 0 ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 19 :=
  (by decide +kernel : ∀ t : Fin grid3.N, _)

/-- Every block of rows is some point's. -/
theorem idx_onto : ∀ q0 : Fin 20, ∃ t : Fin cfg3.N, win3_3.index t = ![q0.val, 0] :=
  (by decide +kernel : ∀ q0 : Fin 20, ∃ t : Fin grid3.N, win3_3.index t = ![q0.val, 0])

variable (V : (c : Dev nD) → (b : Ref sig .tc) → Buf (Elt Ideal) ((c : Thread nD τ).loc b))

/-- What point `t` writes back is block `t` of `head` of the operands as the region finds them. -/
theorem flushed_eq (c : Dev nD) (t : Fin cfg3.N) :
    (dat3 V c).flushed 3 t
      = ((cfg3.win 3).blk t).view.read (Elt Ideal) (head (V c main_v42) (V c main_arg10) (V c main_v43)) := by
  show (cfg3.win 3).cut (grid3.coords t) ((dat3 V c).after 3 t) = _
  rw [after3_3]
  unfold out3_3
  rw [View.canon_unit_zero hz]
  simp only [View.ld_unit_zero (S := S5000x16) hz, View.ld_unit_zero (S := S16x3) hz, View.ld_unit_zero (S := S1x3) hz]
  obtain ⟨e0, e1, e2, e3, e4, e5, e6, e7⟩ := idx_facts t
  funext i
  obtain ⟨p, j, rfl⟩ : ∃ (p : Fin 5000) (j : Fin 3), i = ix2 p j := ⟨i 0, i 1, eq_ix2 i⟩
  have hp : p.val < 5000 := p.isLt
  have hj : j.val < 3 := j.isLt
  refine (pay_at (iblk3 V c 0 t) (iblk3 V c 1 t) (iblk3 V c 2 t) (V c main_v42) (V c main_arg10) (V c main_v43)
    ⟨win3_3.index t (0 : Fin 2) * 5000 + p.val, by omega⟩ p j ?_ ?_ ?_).trans ?_
  · intro k
    have hk : k.val < 16 := k.isLt
    show V c main_v42 (((cfg3.win 0).blk t).view.emb (ix2 p k)) = V c main_v42 _
    refine congrArg (V c main_v42) (funext fun a => Fin.ext ?_)
    match a with
    | ⟨0, _⟩ => show win3_0.index t (0 : Fin 2) * 5000 + 1 * p.val = win3_3.index t (0 : Fin 2) * 5000 + p.val; omega
    | ⟨1, _⟩ => show win3_0.index t (1 : Fin 2) * 16 + 1 * k.val = k.val; omega
  · intro k j'
    have hk : k.val < 16 := k.isLt
    have hj' : j'.val < 3 := j'.isLt
    show V c main_arg10 (((cfg3.win 1).blk t).view.emb (ix2 k j')) = V c main_arg10 _
    refine congrArg (V c main_arg10) (funext fun a => Fin.ext ?_)
    match a with
    | ⟨0, _⟩ => show win3_1.index t (0 : Fin 2) * 16 + 1 * k.val = k.val; omega
    | ⟨1, _⟩ => show win3_1.index t (1 : Fin 2) * 3 + 1 * j'.val = j'.val; omega
  · intro j'
    have hj' : j'.val < 3 := j'.isLt
    show V c main_v43 (((cfg3.win 2).blk t).view.emb (ix2 (0 : Fin 1) j')) = V c main_v43 _
    refine congrArg (V c main_v43) (funext fun a => Fin.ext ?_)
    match a with
    | ⟨0, _⟩ => show win3_2.index t (0 : Fin 2) * 1 + 1 * 0 = 0; omega
    | ⟨1, _⟩ => show win3_2.index t (1 : Fin 2) * 3 + 1 * j'.val = j'.val; omega
  · show headAt _ _ _ _ _ = headAt _ _ _ _ _
    congr 1
    · exact Fin.ext (by show win3_3.index t (0 : Fin 2) * 5000 + p.val = win3_3.index t (0 : Fin 2) * 5000 + 1 * p.val; omega)
    · exact Fin.ext (by show j.val = win3_3.index t (1 : Fin 2) * 3 + 1 * j.val; omega)

/-- An index of the array is in point `t`'s block iff each coordinate is in the block's range on its axis. -/
theorem mem_blk (t : Fin cfg3.N) (i : S100000x3.Idx) :
    i ∈ ((cfg3.win 3).blk t).view.set ↔ ∀ a : Fin 2, win3_3.index t a * S5000x3.size a ≤ (i a).val
      ∧ (i a).val < win3_3.index t a * S5000x3.size a + S5000x3.size a := by
  show i ∈ ((View.whole main_v44).slice (win3_3.rect t)).set ↔ _
  rw [View.set_slice_whole, Rect.mem_set_unit]
  exact Iff.rfl

/-- The twenty blocks of 5000 rows tile the array. -/
theorem cover (i : S100000x3.Idx) :
    ∃ t : Fin cfg3.N, (cfg3.win 3).flush t = true ∧ i ∈ ((cfg3.win 3).blk t).view.set := by
  have hi0 : (i 0).val < 100000 := (i 0).isLt
  have hi1 : (i 1).val < 3 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 3 ≤ (i 1).val ∧ (i 1).val < win3_3.index t (1 : Fin 2) * 3 + 3; omega

/-- The output array after the region: `head` of the three operands as the region finds them. -/
theorem final (c : Dev nD) :
    (dat3 V c).arrAt 3 cfg3.N = head (V c main_v42) (V c main_arg10) (V c main_v43) :=
  (dat3 V c).arrAt_eq_of_cover 3 _ (fun t _ => flushed_eq V c t) cover

end Cert.KernelIdeal.Head

end
-- ==== Proof.Fold.lean ====
/-
  The buffer contents at each boundary of @main, read where the next segment needs them.

  Between the launch and the return the TensorCore's buffers pass through eight boundaries: after each stretch of
  host operations a buffer holds its operation's value of the buffers before it, and after each pallas_call the
  region's output array holds the whole-array expression of its operands while every other buffer is kept. Walking
  forward from the launch memory: the edge list gives the source and destination columns and the reciprocal counts
  once, in the first stretch, and no later segment writes them; each argument array is written by nothing; the
  four output arrays hold `h0`, `h1`, `h2` and the result in turn, each read by the next stretch or region. At the
  last boundary the result buffer holds `Spec.out` of the twelve argument arrays as launched.
-/
import proofs.«107298_j55241869361537_1_alg».proof.Proof.Gen.KernelIdeal.Frame
import proofs.«107298_j55241869361537_1_alg».proof.Proof.Spec
import proofs.«107298_j55241869361537_1_alg».proof.Proof.RegionFc1
import proofs.«107298_j55241869361537_1_alg».proof.Proof.RegionConvUp
import proofs.«107298_j55241869361537_1_alg».proof.Proof.RegionConvDown
import proofs.«107298_j55241869361537_1_alg».proof.Proof.RegionHead
import Idealize.ShloMosaic.Lib.StableHlo.Run

set_option maxRecDepth 16384

noncomputable section

namespace Cert.KernelIdeal.Fold

open Cert.KernelIdeal Cert.KernelIdeal.Gen Cert.KernelIdeal.Spec Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

theorem W1_arg0 : W1 m ρ c (Proc.devRef .tc main_arg0) = m ((c : Thread nD τ).loc main_arg0) := by
  show StableHlo.after hostOps0 (W0 m ρ c) (Proc.devRef .tc main_arg0) = _
  after_results

theorem W1_arg2 : W1 m ρ c (Proc.devRef .tc main_arg2) = m ((c : Thread nD τ).loc main_arg2) := by
  show StableHlo.after hostOps0 (W0 m ρ c) (Proc.devRef .tc main_arg2) = _
  after_results

theorem W1_arg4 : W1 m ρ c (Proc.devRef .tc main_arg4) = m ((c : Thread nD τ).loc main_arg4) := by
  show StableHlo.after hostOps0 (W0 m ρ c) (Proc.devRef .tc main_arg4) = _
  after_results

theorem W1_arg5 : W1 m ρ c (Proc.devRef .tc main_arg5) = m ((c : Thread nD τ).loc main_arg5) := by
  show StableHlo.after hostOps0 (W0 m ρ c) (Proc.devRef .tc main_arg5) = _
  after_results

theorem W1_arg6 : W1 m ρ c (Proc.devRef .tc main_arg6) = m ((c : Thread nD τ).loc main_arg6) := by
  show StableHlo.after hostOps0 (W0 m ρ c) (Proc.devRef .tc main_arg6) = _
  after_results

theorem W1_arg7 : W1 m ρ c (Proc.devRef .tc main_arg7) = m ((c : Thread nD τ).loc main_arg7) := by
  show StableHlo.after hostOps0 (W0 m ρ c) (Proc.devRef .tc main_arg7) = _
  after_results

theorem W1_arg8 : W1 m ρ c (Proc.devRef .tc main_arg8) = m ((c : Thread nD τ).loc main_arg8) := by
  show StableHlo.after hostOps0 (W0 m ρ c) (Proc.devRef .tc main_arg8) = _
  after_results

theorem W1_arg9 : W1 m ρ c (Proc.devRef .tc main_arg9) = m ((c : Thread nD τ).loc main_arg9) := by
  show StableHlo.after hostOps0 (W0 m ρ c) (Proc.devRef .tc main_arg9) = _
  after_results

theorem W1_arg10 : W1 m ρ c (Proc.devRef .tc main_arg10) = m ((c : Thread nD τ).loc main_arg10) := by
  show StableHlo.after hostOps0 (W0 m ρ c) (Proc.devRef .tc main_arg10) = _
  after_results

theorem W1_arg11 : W1 m ρ c (Proc.devRef .tc main_arg11) = m ((c : Thread nD τ).loc main_arg11) := by
  show StableHlo.after hostOps0 (W0 m ρ c) (Proc.devRef .tc main_arg11) = _
  after_results

theorem W1_v13 : W1 m ρ c (Proc.devRef .tc main_v13) = shapeCast S1x16 (m ((c : Thread nD τ).loc main_arg3)) shapeCasts_S16_S1x16 := by
  show StableHlo.after hostOps0 (W0 m ρ c) (Proc.devRef .tc main_v13) = _
  after_results
  rfl

theorem W1_v1 : W1 m ρ c (Proc.devRef .tc main_v1) = src (m ((c : Thread nD τ).loc main_arg1)) := by
  show StableHlo.after hostOps0 (W0 m ρ c) (Proc.devRef .tc main_v1) = _
  after_results
  rfl

theorem W1_v3 : W1 m ρ c (Proc.devRef .tc main_v3) = dst (m ((c : Thread nD τ).loc main_arg1)) := by
  show StableHlo.after hostOps0 (W0 m ρ c) (Proc.devRef .tc main_v3) = _
  after_results
  rfl

theorem W1_v12 : W1 m ρ c (Proc.devRef .tc main_v12) = cntInv (m ((c : Thread nD τ).loc main_arg1)) := by
  show StableHlo.after hostOps0 (W0 m ρ c) (Proc.devRef .tc main_v12) = _
  after_results
  rfl

theorem W2_arg4 : W2 m ρ c (Proc.devRef .tc main_arg4) = m ((c : Thread nD τ).loc main_arg4) :=
  (W2_of_ne m ρ c main_arg4 (by decide)).trans (W1_arg4 m ρ c)

theorem W2_arg5 : W2 m ρ c (Proc.devRef .tc main_arg5) = m ((c : Thread nD τ).loc main_arg5) :=
  (W2_of_ne m ρ c main_arg5 (by decide)).trans (W1_arg5 m ρ c)

theorem W2_arg6 : W2 m ρ c (Proc.devRef .tc main_arg6) = m ((c : Thread nD τ).loc main_arg6) :=
  (W2_of_ne m ρ c main_arg6 (by decide)).trans (W1_arg6 m ρ c)

theorem W2_arg7 : W2 m ρ c (Proc.devRef .tc main_arg7) = m ((c : Thread nD τ).loc main_arg7) :=
  (W2_of_ne m ρ c main_arg7 (by decide)).trans (W1_arg7 m ρ c)

theorem W2_arg8 : W2 m ρ c (Proc.devRef .tc main_arg8) = m ((c : Thread nD τ).loc main_arg8) :=
  (W2_of_ne m ρ c main_arg8 (by decide)).trans (W1_arg8 m ρ c)

theorem W2_arg9 : W2 m ρ c (Proc.devRef .tc main_arg9) = m ((c : Thread nD τ).loc main_arg9) :=
  (W2_of_ne m ρ c main_arg9 (by decide)).trans (W1_arg9 m ρ c)

theorem W2_arg10 : W2 m ρ c (Proc.devRef .tc main_arg10) = m ((c : Thread nD τ).loc main_arg10) :=
  (W2_of_ne m ρ c main_arg10 (by decide)).trans (W1_arg10 m ρ c)

theorem W2_arg11 : W2 m ρ c (Proc.devRef .tc main_arg11) = m ((c : Thread nD τ).loc main_arg11) :=
  (W2_of_ne m ρ c main_arg11 (by decide)).trans (W1_arg11 m ρ c)

theorem W2_v1 : W2 m ρ c (Proc.devRef .tc main_v1) = src (m ((c : Thread nD τ).loc main_arg1)) :=
  (W2_of_ne m ρ c main_v1 (by decide)).trans (W1_v1 m ρ c)

theorem W2_v3 : W2 m ρ c (Proc.devRef .tc main_v3) = dst (m ((c : Thread nD τ).loc main_arg1)) :=
  (W2_of_ne m ρ c main_v3 (by decide)).trans (W1_v3 m ρ c)

theorem W2_v12 : W2 m ρ c (Proc.devRef .tc main_v12) = cntInv (m ((c : Thread nD τ).loc main_arg1)) :=
  (W2_of_ne m ρ c main_v12 (by decide)).trans (W1_v12 m ρ c)

/-- After the first pallas_call its output array holds `h0` of the launch arguments. -/
theorem W2_v14 : W2 m ρ c (Proc.devRef .tc main_v14) = (h0 (m ((c : Thread nD τ).loc main_arg0)) (m ((c : Thread nD τ).loc main_arg2)) (m ((c : Thread nD τ).loc main_arg3))) := by
  refine (W2_arr m ρ c 3).trans ((Fc1.final (V1 m ρ) c).trans ?_)
  rw [show V1 m ρ c main_arg0 = m ((c : Thread nD τ).loc main_arg0) from W1_arg0 m ρ c, show V1 m ρ c main_arg2 = m ((c : Thread nD τ).loc main_arg2) from W1_arg2 m ρ c,
    show V1 m ρ c main_v13 = shapeCast S1x16 (m ((c : Thread nD τ).loc main_arg3)) shapeCasts_S16_S1x16 from W1_v13 m ρ c]
  rfl

theorem W3_arg4 : W3 m ρ c (Proc.devRef .tc main_arg4) = m ((c : Thread nD τ).loc main_arg4) := by
  show StableHlo.after hostOps1 (W2 m ρ c) (Proc.devRef .tc main_arg4) = _
  after_results
  exact W2_arg4 m ρ c

theorem W3_arg6 : W3 m ρ c (Proc.devRef .tc main_arg6) = m ((c : Thread nD τ).loc main_arg6) := by
  show StableHlo.after hostOps1 (W2 m ρ c) (Proc.devRef .tc main_arg6) = _
  after_results
  exact W2_arg6 m ρ c

theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c

theorem W3_arg8 : W3 m ρ c (Proc.devRef .tc main_arg8) = m ((c : Thread nD τ).loc main_arg8) := by
  show StableHlo.after hostOps1 (W2 m ρ c) (Proc.devRef .tc main_arg8) = _
  after_results
  exact W2_arg8 m ρ c

theorem W3_arg9 : W3 m ρ c (Proc.devRef .tc main_arg9) = m ((c : Thread nD τ).loc main_arg9) := by
  show StableHlo.after hostOps1 (W2 m ρ c) (Proc.devRef .tc main_arg9) = _
  after_results
  exact W2_arg9 m ρ c

theorem W3_arg10 : W3 m ρ c (Proc.devRef .tc main_arg10) = m ((c : Thread nD τ).loc main_arg10) := by
  show StableHlo.after hostOps1 (W2 m ρ c) (Proc.devRef .tc main_arg10) = _
  after_results
  exact W2_arg10 m ρ c

theorem W3_arg11 : W3 m ρ c (Proc.devRef .tc main_arg11) = m ((c : Thread nD τ).loc main_arg11) := by
  show StableHlo.after hostOps1 (W2 m ρ c) (Proc.devRef .tc main_arg11) = _
  after_results
  exact W2_arg11 m ρ c

theorem W3_v1 : W3 m ρ c (Proc.devRef .tc main_v1) = src (m ((c : Thread nD τ).loc main_arg1)) := by
  show StableHlo.after hostOps1 (W2 m ρ c) (Proc.devRef .tc main_v1) = _
  after_results
  exact W2_v1 m ρ c

theorem W3_v3 : W3 m ρ c (Proc.devRef .tc main_v3) = dst (m ((c : Thread nD τ).loc main_arg1)) := by
  show StableHlo.after hostOps1 (W2 m ρ c) (Proc.devRef .tc main_v3) = _
  after_results
  exact W2_v3 m ρ c

theorem W3_v12 : W3 m ρ c (Proc.devRef .tc main_v12) = cntInv (m ((c : Thread nD τ).loc main_arg1)) := by
  show StableHlo.after hostOps1 (W2 m ρ c) (Proc.devRef .tc main_v12) = _
  after_results
  exact W2_v12 m ρ c

theorem W3_v14 : W3 m ρ c (Proc.devRef .tc main_v14) = (h0 (m ((c : Thread nD τ).loc main_arg0)) (m ((c : Thread nD τ).loc main_arg2)) (m ((c : Thread nD τ).loc main_arg3))) := by
  show StableHlo.after hostOps1 (W2 m ρ c) (Proc.devRef .tc main_v14) = _
  after_results
  exact W2_v14 m ρ c

theorem W3_v27 : W3 m ρ c (Proc.devRef .tc main_v27) = shapeCast S1x32 (m ((c : Thread nD τ).loc main_arg5)) shapeCasts_S32_S1x32 := by
  show StableHlo.after hostOps1 (W2 m ρ c) (Proc.devRef .tc main_v27) = _
  after_results
  rw [W2_arg5 m ρ c]
  rfl

set_option maxHeartbeats 2000000 in
/-- Before the second pallas_call its first operand holds the mean of `h0` over each node's incoming edges. -/
theorem W3_v26 : W3 m ρ c (Proc.devRef .tc main_v26) = mean16 (m ((c : Thread nD τ).loc main_arg1)) (h0 (m ((c : Thread nD τ).loc main_arg0)) (m ((c : Thread nD τ).loc main_arg2)) (m ((c : Thread nD τ).loc main_arg3))) := by
  show StableHlo.after hostOps1 (W2 m ρ c) (Proc.devRef .tc main_v26) = _
  after_results_simp
  rw [W2_v14 m ρ c, W2_v1 m ρ c, W2_v3 m ρ c, W2_v12 m ρ c]
  rfl

theorem W4_arg7 : W4 m ρ c (Proc.devRef .tc main_arg7) = m ((c : Thread nD τ).loc main_arg7) :=
  (W4_of_ne m ρ c main_arg7 (by decide)).trans (W3_arg7 m ρ c)

theorem W4_arg8 : W4 m ρ c (Proc.devRef .tc main_arg8) = m ((c : Thread nD τ).loc main_arg8) :=
  (W4_of_ne m ρ c main_arg8 (by decide)).trans (W3_arg8 m ρ c)

theorem W4_arg9 : W4 m ρ c (Proc.devRef .tc main_arg9) = m ((c : Thread nD τ).loc main_arg9) :=
  (W4_of_ne m ρ c main_arg9 (by decide)).trans (W3_arg9 m ρ c)

theorem W4_arg10 : W4 m ρ c (Proc.devRef .tc main_arg10) = m ((c : Thread nD τ).loc main_arg10) :=
  (W4_of_ne m ρ c main_arg10 (by decide)).trans (W3_arg10 m ρ c)

theorem W4_arg11 : W4 m ρ c (Proc.devRef .tc main_arg11) = m ((c : Thread nD τ).loc main_arg11) :=
  (W4_of_ne m ρ c main_arg11 (by decide)).trans (W3_arg11 m ρ c)

theorem W4_v1 : W4 m ρ c (Proc.devRef .tc main_v1) = src (m ((c : Thread nD τ).loc main_arg1)) :=
  (W4_of_ne m ρ c main_v1 (by decide)).trans (W3_v1 m ρ c)

theorem W4_v3 : W4 m ρ c (Proc.devRef .tc main_v3) = dst (m ((c : Thread nD τ).loc main_arg1)) :=
  (W4_of_ne m ρ c main_v3 (by decide)).trans (W3_v3 m ρ c)

theorem W4_v12 : W4 m ρ c (Proc.devRef .tc main_v12) = cntInv (m ((c : Thread nD τ).loc main_arg1)) :=
  (W4_of_ne m ρ c main_v12 (by decide)).trans (W3_v12 m ρ c)

/-- After the second pallas_call its output array holds `h1` of the launch arguments. -/
theorem W4_v28 : W4 m ρ c (Proc.devRef .tc main_v28) = (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W4_arr m ρ c 5).trans ((ConvUp.final (V3 m ρ) c).trans ?_)
  rw [show V3 m ρ c main_v26 = mean16 (m ((c : Thread nD τ).loc main_arg1)) (h0 (m ((c : Thread nD τ).loc main_arg0)) (m ((c : Thread nD τ).loc main_arg2)) (m ((c : Thread nD τ).loc main_arg3))) from W3_v26 m ρ c, show V3 m ρ c main_v14 = (h0 (m ((c : Thread nD τ).loc main_arg0)) (m ((c : Thread nD τ).loc main_arg2)) (m ((c : Thread nD τ).loc main_arg3))) from W3_v14 m ρ c,
    show V3 m ρ c main_arg4 = m ((c : Thread nD τ).loc main_arg4) from W3_arg4 m ρ c,
    show V3 m ρ c main_v27 = shapeCast S1x32 (m ((c : Thread nD τ).loc main_arg5)) shapeCasts_S32_S1x32 from W3_v27 m ρ c,
    show V3 m ρ c main_arg6 = m ((c : Thread nD τ).loc main_arg6) from W3_arg6 m ρ c]
  rfl

theorem W5_arg7 : W5 m ρ c (Proc.devRef .tc main_arg7) = m ((c : Thread nD τ).loc main_arg7) := by
  show StableHlo.after hostOps2 (W4 m ρ c) (Proc.devRef .tc main_arg7) = _
  after_results
  exact W4_arg7 m ρ c

theorem W5_arg9 : W5 m ρ c (Proc.devRef .tc main_arg9) = m ((c : Thread nD τ).loc main_arg9) := by
  show StableHlo.after hostOps2 (W4 m ρ c) (Proc.devRef .tc main_arg9) = _
  after_results
  exact W4_arg9 m ρ c

theorem W5_arg10 : W5 m ρ c (Proc.devRef .tc main_arg10) = m ((c : Thread nD τ).loc main_arg10) := by
  show StableHlo.after hostOps2 (W4 m ρ c) (Proc.devRef .tc main_arg10) = _
  after_results
  exact W4_arg10 m ρ c

theorem W5_arg11 : W5 m ρ c (Proc.devRef .tc main_arg11) = m ((c : Thread nD τ).loc main_arg11) := by
  show StableHlo.after hostOps2 (W4 m ρ c) (Proc.devRef .tc main_arg11) = _
  after_results
  exact W4_arg11 m ρ c

theorem W5_v28 : W5 m ρ c (Proc.devRef .tc main_v28) = (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after hostOps2 (W4 m ρ c) (Proc.devRef .tc main_v28) = _
  after_results
  exact W4_v28 m ρ c

theorem W5_v41 : W5 m ρ c (Proc.devRef .tc main_v41) = shapeCast S1x16 (m ((c : Thread nD τ).loc main_arg8)) shapeCasts_S16_S1x16 := by
  show StableHlo.after hostOps2 (W4 m ρ c) (Proc.devRef .tc main_v41) = _
  after_results
  rw [W4_arg8 m ρ c]
  rfl

set_option maxHeartbeats 2000000 in
/-- Before the third pallas_call its first operand holds the mean of `h1` over each node's incoming edges. -/
theorem W5_v40 : W5 m ρ c (Proc.devRef .tc main_v40) = mean32 (m ((c : Thread nD τ).loc main_arg1)) (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after hostOps2 (W4 m ρ c) (Proc.devRef .tc main_v40) = _
  after_results_simp
  rw [W4_v28 m ρ c, W4_v1 m ρ c, W4_v3 m ρ c, W4_v12 m ρ c]
  rfl

theorem W6_arg10 : W6 m ρ c (Proc.devRef .tc main_arg10) = m ((c : Thread nD τ).loc main_arg10) :=
  (W6_of_ne m ρ c main_arg10 (by decide)).trans (W5_arg10 m ρ c)

theorem W6_arg11 : W6 m ρ c (Proc.devRef .tc main_arg11) = m ((c : Thread nD τ).loc main_arg11) :=
  (W6_of_ne m ρ c main_arg11 (by decide)).trans (W5_arg11 m ρ c)

/-- After the third pallas_call its output array holds `h2` of the launch arguments. -/
theorem W6_v42 : W6 m ρ c (Proc.devRef .tc main_v42) = (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W6_arr m ρ c 5).trans ((ConvDown.final (V5 m ρ) c).trans ?_)
  rw [show V5 m ρ c main_v40 = mean32 (m ((c : Thread nD τ).loc main_arg1)) (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) from W5_v40 m ρ c, show V5 m ρ c main_v28 = (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) from W5_v28 m ρ c,
    show V5 m ρ c main_arg7 = m ((c : Thread nD τ).loc main_arg7) from W5_arg7 m ρ c,
    show V5 m ρ c main_v41 = shapeCast S1x16 (m ((c : Thread nD τ).loc main_arg8)) shapeCasts_S16_S1x16 from W5_v41 m ρ c,
    show V5 m ρ c main_arg9 = m ((c : Thread nD τ).loc main_arg9) from W5_arg9 m ρ c]
  rfl

theorem W7_arg10 : W7 m ρ c (Proc.devRef .tc main_arg10) = m ((c : Thread nD τ).loc main_arg10) := by
  show StableHlo.after hostOps3 (W6 m ρ c) (Proc.devRef .tc main_arg10) = _
  after_results
  exact W6_arg10 m ρ c

theorem W7_v42 : W7 m ρ c (Proc.devRef .tc main_v42) = (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps3 (W6 m ρ c) (Proc.devRef .tc main_v42) = _
  after_results
  exact W6_v42 m ρ c

theorem W7_v43 : W7 m ρ c (Proc.devRef .tc main_v43) = shapeCast S1x3 (m ((c : Thread nD τ).loc main_arg11)) shapeCasts_S3_S1x3 := by
  show StableHlo.after hostOps3 (W6 m ρ c) (Proc.devRef .tc main_v43) = _
  after_results
  rw [W6_arg11 m ρ c]
  rfl

/-- After the last pallas_call the result buffer holds the network's output of the launch arguments. -/
theorem W8_v44 : W8 m ρ c (Proc.devRef .tc main_v44) = (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W8_arr m ρ c 3).trans ((Head.final (V7 m ρ) c).trans ?_)
  rw [show V7 m ρ c main_v42 = (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) from W7_v42 m ρ c, show V7 m ρ c main_arg10 = m ((c : Thread nD τ).loc main_arg10) from W7_arg10 m ρ c,
    show V7 m ρ c main_v43 = shapeCast S1x3 (m ((c : Thread nD τ).loc main_arg11)) shapeCasts_S3_S1x3 from W7_v43 m ρ c]
  rfl

end Cert.KernelIdeal.Fold

end
-- ==== Proof.LibMeanLaw.lean ====
/-
  The mean of a neighbourhood, written two ways, on the extended reals.

  A node's aggregated message `a` is divided by `c = max cnt 1`, the number of incoming edges clamped below by one.
  One program multiplies `a` by the reciprocal `1 / c`, the other divides `a` by `c`. Off zero the quotient of the
  extended reals is the product with the inverse, and `c ≥ 1` is never zero — whether `cnt` is a real number or
  an infinity — so `1 / c = c⁻¹` and both programs compute `a · c⁻¹`. Nothing is asked of `a` or of `cnt`.
-/
import Idealize.ShloMosaic.PureOps.Ideal

noncomputable section

namespace Cert.Lib.MeanLaw

open Idealize.ShloMosaic

/-- The f32 word `0x3F800000` is the real number one. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h]; rfl

/-- Multiplying by the reciprocal of a number at least one is dividing by it. -/
theorem mul_recip_eq_div (a c : EReal) (hc : (1 : EReal) ≤ c) : a * Ideal.div 1 c = Ideal.div a c := by
  have h0 : c ≠ 0 := fun e => by
    rw [e] at hc
    exact absurd hc (by norm_num)
  unfold Ideal.div
  rw [if_neg h0, if_neg h0, one_mul]

/-- The same with the clamp spelt out and the one written as its f32 word: `a · (1 / max cnt 1) = a / max cnt 1`. -/
theorem mul_recip_max (a cnt : EReal) :
    a * Ideal.div (Ideal.ofBits .f32 0x3F800000#32) (max cnt (Ideal.ofBits .f32 0x3F800000#32))
      = Ideal.div a (max cnt (Ideal.ofBits .f32 0x3F800000#32)) := by
  rw [ofBits_one]
  exact mul_recip_eq_div a (max cnt 1) (le_max_right cnt 1)

end Cert.Lib.MeanLaw

end
-- ==== Proof.Bridge.lean ====
/-
  The reference, stage by stage, is the kernel's specification.

  Both programs read the same twelve arrays. The reference computes each dense stage by the host's matrix product of
  the whole arrays, a bias broadcast over the rows and a clamp at zero — entry by entry the expression the kernel's
  blocks were shown to fill. Between the dense stages both programs run the same gather of source rows and the same
  accumulating scatter onto destination rows, on equal arrays, so those results are equal with nothing opened; the
  reference then divides the sum by `max(cnt, 1)` where the kernel multiplies by `1 / max(cnt, 1)`, one number on the
  extended reals because `max(cnt, 1)` is never zero. The reference's three output columns are slices of the
  logits, the logistic function spelt `1 / (1 + exp(-z))`, joined along the second axis: column by column the
  kernel's head.
-/
import proofs.«107298_j55241869361537_1_alg».proof.Proof.Gen.ReferenceIdeal.Read
import proofs.«107298_j55241869361537_1_alg».proof.Proof.Spec
import proofs.«107298_j55241869361537_1_alg».proof.Proof.LibMeanLaw
import Idealize.ShloMosaic.Lib.Pipeline.Value
import Idealize.ShloMosaic.Lib.ValueIdx
import Idealize.ShloMosaic.Lib.ValueLayout

set_option maxRecDepth 16384

noncomputable section

namespace Cert.Bridge

open Cert.ReferenceIdeal Cert.ReferenceIdeal.Gen Cert.ReferenceIdeal.Read Cert.KernelIdeal.Spec
open Idealize.ShloMosaic Idealize.ShloMosaic.ValueIdx

/-- The reciprocal count column spread over 16 features, read at entry `(p, q)`: `1 / max(cnt p, 1)`. -/
theorem recipCol16 (cn : FVec Ideal Cert.KernelIdeal.S100000 .f32) (p : Fin 100000) (q : Fin 16) :
    broadcastInDim Cert.KernelIdeal.S100000x16 ![0, 1] Cert.KernelIdeal.Gen.bcast_S100000x1_S100000x16_0_1
        (broadcastInDim Cert.KernelIdeal.S100000x1 ![0] Cert.KernelIdeal.Gen.bcast_S100000_S100000x1_0
          (Host.divf (broadcastInDim Cert.KernelIdeal.S100000 ![] Cert.KernelIdeal.Gen.bcast_S_S100000 (constant (F := Ideal) Cert.KernelIdeal.S_ .f32 0x3F800000#32))
            (maximumf cn (broadcastInDim Cert.KernelIdeal.S100000 ![] Cert.KernelIdeal.Gen.bcast_S_S100000 (constant (F := Ideal) Cert.KernelIdeal.S_ .f32 0x3F800000#32)))))
        (ix2 p q)
      = Ideal.div (Ideal.ofBits .f32 0x3F800000#32) (max (cn (ix1 p)) (Ideal.ofBits .f32 0x3F800000#32)) := by
  rw [broadcastInDim_apply _ Cert.KernelIdeal.Gen.bcast_S100000x1_S100000x16_0_1 _ (ix2 p q) (ix2 p (0 : Fin 1)) (fun a => match a with
      | ⟨0, _⟩ => by show p.val = if (100000 : Nat) = 1 then 0 else p.val; rw [if_neg (by decide)]
      | ⟨1, _⟩ => by show 0 = if (1 : Nat) = 1 then 0 else q.val; rw [if_pos rfl]),
    broadcastInDim_apply _ Cert.KernelIdeal.Gen.bcast_S100000_S100000x1_0 _ (ix2 p (0 : Fin 1)) (ix1 p) (fun a => match a with
      | ⟨0, _⟩ => by show p.val = if (100000 : Nat) = 1 then 0 else p.val; rw [if_neg (by decide)])]
  show Ideal.div (broadcastInDim Cert.KernelIdeal.S100000 ![] Cert.KernelIdeal.Gen.bcast_S_S100000 (constant (F := Ideal) Cert.KernelIdeal.S_ .f32 0x3F800000#32) (ix1 p))
      (max (cn (ix1 p)) (broadcastInDim Cert.KernelIdeal.S100000 ![] Cert.KernelIdeal.Gen.bcast_S_S100000 (constant (F := Ideal) Cert.KernelIdeal.S_ .f32 0x3F800000#32) (ix1 p))) = _
  rw [broadcastInDim_apply _ Cert.KernelIdeal.Gen.bcast_S_S100000 _ (ix1 p) ix0 (fun a => a.elim0)]
  rfl

/-- The reciprocal count column spread over 32 features, read at entry `(p, q)`: `1 / max(cnt p, 1)`. -/
theorem recipCol32 (cn : FVec Ideal Cert.KernelIdeal.S100000 .f32) (p : Fin 100000) (q : Fin 32) :
    broadcastInDim Cert.KernelIdeal.S100000x32 ![0, 1] Cert.KernelIdeal.Gen.bcast_S100000x1_S100000x32_0_1
        (broadcastInDim Cert.KernelIdeal.S100000x1 ![0] Cert.KernelIdeal.Gen.bcast_S100000_S100000x1_0
          (Host.divf (broadcastInDim Cert.KernelIdeal.S100000 ![] Cert.KernelIdeal.Gen.bcast_S_S100000 (constant (F := Ideal) Cert.KernelIdeal.S_ .f32 0x3F800000#32))
            (maximumf cn (broadcastInDim Cert.KernelIdeal.S100000 ![] Cert.KernelIdeal.Gen.bcast_S_S100000 (constant (F := Ideal) Cert.KernelIdeal.S_ .f32 0x3F800000#32)))))
        (ix2 p q)
      = Ideal.div (Ideal.ofBits .f32 0x3F800000#32) (max (cn (ix1 p)) (Ideal.ofBits .f32 0x3F800000#32)) := by
  rw [broadcastInDim_apply _ Cert.KernelIdeal.Gen.bcast_S100000x1_S100000x32_0_1 _ (ix2 p q) (ix2 p (0 : Fin 1)) (fun a => match a with
      | ⟨0, _⟩ => by show p.val = if (100000 : Nat) = 1 then 0 else p.val; rw [if_neg (by decide)]
      | ⟨1, _⟩ => by show 0 = if (1 : Nat) = 1 then 0 else q.val; rw [if_pos rfl]),
    broadcastInDim_apply _ Cert.KernelIdeal.Gen.bcast_S100000_S100000x1_0 _ (ix2 p (0 : Fin 1)) (ix1 p) (fun a => match a with
      | ⟨0, _⟩ => by show p.val = if (100000 : Nat) = 1 then 0 else p.val; rw [if_neg (by decide)])]
  show Ideal.div (broadcastInDim Cert.KernelIdeal.S100000 ![] Cert.KernelIdeal.Gen.bcast_S_S100000 (constant (F := Ideal) Cert.KernelIdeal.S_ .f32 0x3F800000#32) (ix1 p))
      (max (cn (ix1 p)) (broadcastInDim Cert.KernelIdeal.S100000 ![] Cert.KernelIdeal.Gen.bcast_S_S100000 (constant (F := Ideal) Cert.KernelIdeal.S_ .f32 0x3F800000#32) (ix1 p))) = _
  rw [broadcastInDim_apply _ Cert.KernelIdeal.Gen.bcast_S_S100000 _ (ix1 p) ix0 (fun a => a.elim0)]
  rfl

/-- Three columns joined along the second axis, read in column 0. -/
theorem concat3_col0 {α : Type} (y0 y1 y2 : S100000x1.Idx → α) (p : Fin 100000) :
    concatenate S100000x3 1 [⟨S100000x1, y0⟩, ⟨S100000x1, y1⟩, ⟨S100000x1, y2⟩]
        concatenates_S100000x1_S100000x1_S100000x1_S100000x3_d1 (ix2 p (0 : Fin 3))
      = y0 (ix2 p (0 : Fin 1)) :=
  concatenate_apply_piece (1 : Fin 2) _ _ (ix2 p (0 : Fin 3)) 0 (by show (0 : ℕ) < 3; decide) S100000x1 y0 rfl rfl 0 rfl
    (ix2 p (0 : Fin 1)) (fun b hb => by match b with | ⟨0, _⟩ => rfl | ⟨1, _⟩ => exact absurd rfl hb) rfl

/-- Three columns joined along the second axis, read in column 1. -/
theorem concat3_col1 {α : Type} (y0 y1 y2 : S100000x1.Idx → α) (p : Fin 100000) :
    concatenate S100000x3 1 [⟨S100000x1, y0⟩, ⟨S100000x1, y1⟩, ⟨S100000x1, y2⟩]
        concatenates_S100000x1_S100000x1_S100000x1_S100000x3_d1 (ix2 p (1 : Fin 3))
      = y1 (ix2 p (0 : Fin 1)) :=
  concatenate_apply_piece (1 : Fin 2) _ _ (ix2 p (1 : Fin 3)) 1 (by show (1 : ℕ) < 3; decide) S100000x1 y1 rfl rfl 1 rfl
    (ix2 p (0 : Fin 1)) (fun b hb => by match b with | ⟨0, _⟩ => rfl | ⟨1, _⟩ => exact absurd rfl hb) rfl

/-- Three columns joined along the second axis, read in column 2. -/
theorem concat3_col2 {α : Type} (y0 y1 y2 : S100000x1.Idx → α) (p : Fin 100000) :
    concatenate S100000x3 1 [⟨S100000x1, y0⟩, ⟨S100000x1, y1⟩, ⟨S100000x1, y2⟩]
        concatenates_S100000x1_S100000x1_S100000x1_S100000x3_d1 (ix2 p (2 : Fin 3))
      = y2 (ix2 p (0 : Fin 1)) :=
  concatenate_apply_piece (1 : Fin 2) _ _ (ix2 p (2 : Fin 3)) 2 (by show (2 : ℕ) < 3; decide) S100000x1 y2 rfl rfl 2 rfl
    (ix2 p (0 : Fin 1)) (fun b hb => by match b with | ⟨0, _⟩ => rfl | ⟨1, _⟩ => exact absurd rfl hb) rfl

/-- Column 1 of the kernel's head is the logistic function of logit 1. -/
theorem head_col1 (H : FVec Ideal Cert.KernelIdeal.S100000x16 .f32) (W : FVec Ideal Cert.KernelIdeal.S16x3 .f32) (B : FVec Ideal Cert.KernelIdeal.S1x3 .f32)
    (p : Fin 100000) : head H W B (ix2 p (1 : Fin 3)) = Ideal.logistic (logitAt H W B p 1) := by
  unfold head headAt
  rw [if_neg (by show ¬ (1 : ℕ) = 0; decide)]

/-- Column 2 of the kernel's head is the logistic function of logit 2. -/
theorem head_col2 (H : FVec Ideal Cert.KernelIdeal.S100000x16 .f32) (W : FVec Ideal Cert.KernelIdeal.S16x3 .f32) (B : FVec Ideal Cert.KernelIdeal.S1x3 .f32)
    (p : Fin 100000) : head H W B (ix2 p (2 : Fin 3)) = Ideal.logistic (logitAt H W B p 2) := by
  unfold head headAt
  rw [if_neg (by show ¬ (2 : ℕ) = 0; decide)]

/-- The logistic function as the reference spells it, the ones as their f32 word. -/
theorem sigmoid_eq (z : EReal) :
    Ideal.div (Ideal.ofBits .f32 0x3F800000#32) (Ideal.ofBits .f32 0x3F800000#32 + Ideal.exp (-z)) = Ideal.logistic z := by
  rw [Cert.Lib.MeanLaw.ofBits_one]
  rfl

variable (x0 : (⟨S100000x512, .f32⟩ : BufTy).Contents (Elt Ideal))
  (x1 : (⟨S2x3200000, .i32⟩ : BufTy).Contents (Elt Ideal))
  (x2 : (⟨S512x16, .f32⟩ : BufTy).Contents (Elt Ideal))
  (x3 : (⟨S16, .f32⟩ : BufTy).Contents (Elt Ideal))
  (x4 : (⟨S16x32, .f32⟩ : BufTy).Contents (Elt Ideal))
  (x5 : (⟨S32, .f32⟩ : BufTy).Contents (Elt Ideal))
  (x6 : (⟨S16x32, .f32⟩ : BufTy).Contents (Elt Ideal))
  (x7 : (⟨S32x16, .f32⟩ : BufTy).Contents (Elt Ideal))
  (x8 : (⟨S16, .f32⟩ : BufTy).Contents (Elt Ideal))
  (x9 : (⟨S32x16, .f32⟩ : BufTy).Contents (Elt Ideal))
  (x10 : (⟨S16x3, .f32⟩ : BufTy).Contents (Elt Ideal))
  (x11 : (⟨S3, .f32⟩ : BufTy).Contents (Elt Ideal))

/-- The reference's first dense stage is the kernel's `h0`. -/
theorem ref_h0 : val_main_v8 (F := Ideal) x0 x2 x3 = h0 x0 x2 x3 := by
  funext i
  obtain ⟨p, q, rfl⟩ : ∃ (p : Fin 100000) (q : Fin 16), i = ix2 p q := ⟨i 0, i 1, eq_ix2 i⟩
  rw [val_main_v8_apply, val_main_v7_apply, val_main_v6_apply, val_main_v5_apply, val_main_call0_v0_apply,
    val_main_call0_cst_apply]
  have eb : x3 (idx_main_v5 (idx_main_v6 (ix2 p q)))
      = shapeCast Cert.KernelIdeal.S1x16 x3 Cert.KernelIdeal.Gen.shapeCasts_S16_S1x16 (ix2 (0 : Fin 1) q) := by
    rw [shapeCast_a_1a_apply]
    exact congrArg x3 (funext fun a => by match a with | ⟨0, _⟩ => rfl)
  rw [eb]
  rfl

/-- The reference's mean over incoming edges is the kernel's: the same gather and accumulating scatter of the same
    rows, and dividing by `max(cnt, 1)` is multiplying by its reciprocal. -/
theorem ref_mean16 : val_main_v27 (F := Ideal) x0 x1 x2 x3 = mean16 x1 (h0 x0 x2 x3) := by
  have hagg : val_main_v18 (F := Ideal) x0 x1 x2 x3 = agg16 x1 (h0 x0 x2 x3) := by
    unfold val_main_v18 val_main_v15
    rw [ref_h0]
    rfl
  have hcnt : val_main_v22 (F := Ideal) x1 = cnt x1 := rfl
  funext i
  obtain ⟨p, q, rfl⟩ : ∃ (p : Fin 100000) (q : Fin 16), i = ix2 p q := ⟨i 0, i 1, eq_ix2 i⟩
  rw [val_main_v27_apply, val_main_v26_apply, val_main_v25_apply, val_main_v24_apply, val_main_v23_apply, val_main_cst_3_apply, hagg, hcnt]
  have ei : idx_main_v25 (idx_main_v26 (ix2 p q)) = ix1 p :=
    funext fun a => by match a with | ⟨0, _⟩ => rfl
  rw [ei]
  unfold mean16 cntInv
  rw [mulf_apply, recipCol16]
  exact (Cert.Lib.MeanLaw.mul_recip_max _ _).symm

/-- The reference's combine stage is the kernel's: the two products, the bias row and the clamp, entry by entry. -/
theorem ref_h1 : val_main_v34 (F := Ideal) x0 x1 x2 x3 x4 x5 x6 = h1 x0 x1 x2 x3 x4 x5 x6 := by
  funext i
  obtain ⟨p, q, rfl⟩ : ∃ (p : Fin 100000) (q : Fin 32), i = ix2 p q := ⟨i 0, i 1, eq_ix2 i⟩
  rw [val_main_v34_apply, val_main_v33_apply, val_main_v31_apply, val_main_v30_apply, val_main_v29_apply, val_main_call1_v0_apply, val_main_call1_cst_apply]
  have eb : x5 (idx_main_v29 (idx_main_v30 (ix2 p q)))
      = shapeCast Cert.KernelIdeal.S1x32 x5 Cert.KernelIdeal.Gen.shapeCasts_S32_S1x32 (ix2 (0 : Fin 1) q) := by
    rw [shapeCast_a_1a_apply]
    exact congrArg x5 (funext fun a => by match a with | ⟨0, _⟩ => rfl)
  rw [eb]
  unfold val_main_v28 val_main_v32
  rw [ref_mean16, ref_h0]
  rfl

/-- The reference's mean over incoming edges is the kernel's: the same gather and accumulating scatter of the same
    rows, and dividing by `max(cnt, 1)` is multiplying by its reciprocal. -/
theorem ref_mean32 : val_main_v53 (F := Ideal) x0 x1 x2 x3 x4 x5 x6 = mean32 x1 (h1 x0 x1 x2 x3 x4 x5 x6) := by
  have hagg : val_main_v44 (F := Ideal) x0 x1 x2 x3 x4 x5 x6 = agg32 x1 (h1 x0 x1 x2 x3 x4 x5 x6) := by
    unfold val_main_v44 val_main_v41
    rw [ref_h1]
    rfl
  have hcnt : val_main_v48 (F := Ideal) x1 = cnt x1 := rfl
  funext i
  obtain ⟨p, q, rfl⟩ : ∃ (p : Fin 100000) (q : Fin 32), i = ix2 p q := ⟨i 0, i 1, eq_ix2 i⟩
  rw [val_main_v53_apply, val_main_v52_apply, val_main_v51_apply, val_main_v50_apply, val_main_v49_apply, val_main_cst_9_apply, hagg, hcnt]
  have ei : idx_main_v51 (idx_main_v52 (ix2 p q)) = ix1 p :=
    funext fun a => by match a with | ⟨0, _⟩ => rfl
  rw [ei]
  unfold mean32 cntInv
  rw [mulf_apply, recipCol32]
  exact (Cert.Lib.MeanLaw.mul_recip_max _ _).symm

/-- The reference's combine stage is the kernel's: the two products, the bias row and the clamp, entry by entry. -/
theorem ref_h2 : val_main_v60 (F := Ideal) x0 x1 x2 x3 x4 x5 x6 x7 x8 x9 = h2 x0 x1 x2 x3 x4 x5 x6 x7 x8 x9 := by
  funext i
  obtain ⟨p, q, rfl⟩ : ∃ (p : Fin 100000) (q : Fin 16), i = ix2 p q := ⟨i 0, i 1, eq_ix2 i⟩
  rw [val_main_v60_apply, val_main_v59_apply, val_main_v57_apply, val_main_v56_apply, val_main_v55_apply, val_main_call2_v0_apply, val_main_call2_cst_apply]
  have eb : x8 (idx_main_v55 (idx_main_v56 (ix2 p q)))
      = shapeCast Cert.KernelIdeal.S1x16 x8 Cert.KernelIdeal.Gen.shapeCasts_S16_S1x16 (ix2 (0 : Fin 1) q) := by
    rw [shapeCast_a_1a_apply]
    exact congrArg x8 (funext fun a => by match a with | ⟨0, _⟩ => rfl)
  rw [eb]
  unfold val_main_v54 val_main_v58
  rw [ref_mean32, ref_h1]
  rfl

/-- The reference's logits are the kernel's. -/
theorem ref_logit (p : Fin 100000) (j : Fin 3) :
    val_main_v64 (F := Ideal) x0 x1 x2 x3 x4 x5 x6 x7 x8 x9 x10 x11 (ix2 p j)
      = logitAt (h2 x0 x1 x2 x3 x4 x5 x6 x7 x8 x9) x10 (shapeCast Cert.KernelIdeal.S1x3 x11 Cert.KernelIdeal.Gen.shapeCasts_S3_S1x3) p j := by
  rw [val_main_v64_apply, val_main_v63_apply, val_main_v62_apply]
  have eb : x11 (idx_main_v62 (idx_main_v63 (ix2 p j)))
      = shapeCast Cert.KernelIdeal.S1x3 x11 Cert.KernelIdeal.Gen.shapeCasts_S3_S1x3 (ix2 (0 : Fin 1) j) := by
    rw [shapeCast_a_1a_apply]
    exact congrArg x11 (funext fun a => by match a with | ⟨0, _⟩ => rfl)
  rw [eb]
  unfold val_main_v61
  rw [ref_h2]
  rfl

/-- Column 1 of the reference's result: the logistic function of logit 1, spelt `1 / (1 + exp(-z))`. -/
theorem ref_sig1 (p : Fin 100000) :
    val_main_v72 (F := Ideal) x0 x1 x2 x3 x4 x5 x6 x7 x8 x9 x10 x11 (ix1 p) = Ideal.logistic (val_main_v64 (F := Ideal) x0 x1 x2 x3 x4 x5 x6 x7 x8 x9 x10 x11 (ix2 p (1 : Fin 3))) := by
  rw [val_main_v72_apply, val_main_v71_apply, val_main_cst_11_apply, val_main_v70_apply, val_main_v69_apply, val_main_cst_10_apply, val_main_v68_apply, val_main_v67_apply,
    val_main_v66_apply, val_main_v65_apply]
  have ei : idx_main_v65 (idx_main_v66 (ix1 p)) = ix2 p (1 : Fin 3) :=
    funext fun a => Fin.ext (by match a with | ⟨0, _⟩ => exact Nat.div_one _ | ⟨1, _⟩ => rfl)
  rw [ei]
  generalize val_main_v64 (F := Ideal) x0 x1 x2 x3 x4 x5 x6 x7 x8 x9 x10 x11 (ix2 p (1 : Fin 3)) = z
  exact sigmoid_eq z

/-- Column 2 of the reference's result: the logistic function of logit 2, spelt `1 / (1 + exp(-z))`. -/
theorem ref_sig2 (p : Fin 100000) :
    val_main_v80 (F := Ideal) x0 x1 x2 x3 x4 x5 x6 x7 x8 x9 x10 x11 (ix1 p) = Ideal.logistic (val_main_v64 (F := Ideal) x0 x1 x2 x3 x4 x5 x6 x7 x8 x9 x10 x11 (ix2 p (2 : Fin 3))) := by
  rw [val_main_v80_apply, val_main_v79_apply, val_main_cst_13_apply, val_main_v78_apply, val_main_v77_apply, val_main_cst_12_apply, val_main_v76_apply, val_main_v75_apply,
    val_main_v74_apply, val_main_v73_apply]
  have ei : idx_main_v73 (idx_main_v74 (ix1 p)) = ix2 p (2 : Fin 3) :=
    funext fun a => Fin.ext (by match a with | ⟨0, _⟩ => exact Nat.div_one _ | ⟨1, _⟩ => rfl)
  rw [ei]
  generalize val_main_v64 (F := Ideal) x0 x1 x2 x3 x4 x5 x6 x7 x8 x9 x10 x11 (ix2 p (2 : Fin 3)) = z
  exact sigmoid_eq z

/-- The clamp of logit 0 at zero. -/
theorem ref_relu0 (p : Fin 100000) :
    val_main_v83 (F := Ideal) x0 x1 x2 x3 x4 x5 x6 x7 x8 x9 x10 x11 (ix1 p)
      = max (val_main_v64 (F := Ideal) x0 x1 x2 x3 x4 x5 x6 x7 x8 x9 x10 x11 (ix2 p (0 : Fin 3))) (Ideal.ofBits .f32 0x00000000#32) := by
  rw [val_main_v83_apply, val_main_call3_v0_apply, val_main_call3_cst_apply, val_main_v82_apply, val_main_v81_apply]
  have ei : idx_main_v81 (idx_main_v82 (ix1 p)) = ix2 p (0 : Fin 3) :=
    funext fun a => Fin.ext (by match a with | ⟨0, _⟩ => exact Nat.div_one _ | ⟨1, _⟩ => rfl)
  rw [ei]
  rfl

/-- The reference's result is the kernel's specification of the twelve arrays. -/
theorem ref_out : val_main_v88 (F := Ideal) x0 x1 x2 x3 x4 x5 x6 x7 x8 x9 x10 x11 = out x0 x1 x2 x3 x4 x5 x6 x7 x8 x9 x10 x11 := by
  funext i
  obtain ⟨p, j, rfl⟩ : ∃ (p : Fin 100000) (j : Fin 3), i = ix2 p j := ⟨i 0, i 1, eq_ix2 i⟩
  unfold val_main_v88
  match j with
  | ⟨0, _⟩ =>
    refine (concat3_col0 _ _ _ p).trans ?_
    rw [val_main_v85_apply]
    have ei : idx_main_v85 (ix2 p (0 : Fin 1)) = ix1 p := funext fun a => by match a with | ⟨0, _⟩ => rfl
    rw [ei]
    rw [val_main_v84_apply, ref_relu0, ref_sig1, ref_logit, ref_logit]
    rfl
  | ⟨1, _⟩ =>
    refine (concat3_col1 _ _ _ p).trans ?_
    rw [val_main_v86_apply]
    have ei : idx_main_v86 (ix2 p (0 : Fin 1)) = ix1 p := funext fun a => by match a with | ⟨0, _⟩ => rfl
    rw [ei]
    rw [ref_sig1, ref_logit]
    exact (head_col1 _ _ _ p).symm
  | ⟨2, _⟩ =>
    refine (concat3_col2 _ _ _ p).trans ?_
    rw [val_main_v87_apply]
    have ei : idx_main_v87 (ix2 p (0 : Fin 1)) = ix1 p := funext fun a => by match a with | ⟨0, _⟩ => rfl
    rw [ei]
    rw [ref_sig2, ref_logit]
    exact (head_col2 _ _ _ p).symm

end Cert.Bridge

end
-- ==== Proof.lean ====
/-
  The claim: a two-layer mean-aggregating graph network as four pallas_calls among host operations, against its
  jax.numpy reference, over the extended reals.

  The three frames are the generated frame certificates (for the reference, its generated run with the result
  dropped). The ideal pass rewrote nothing, so the idealized kernel is the kernel's own text read over the extended
  reals. For the value: the idealized kernel's run ends with its result buffer at the last boundary's contents,
  which the fold through @main's eight segments reads as `Spec.out` of the twelve argument arrays — four dense
  stages, each filled block by block with the host's whole matrix product at its rows, between the same gather and
  accumulating scatter the reference uses; the reference's run ends with its result at its operations' composed
  term, which stage by stage is the same `Spec.out`: the products, biases and clamps entry by entry, the gather
  and scatter by equality of their operands, the mean because dividing by `max(cnt, 1) ≥ 1` is multiplying by its
  reciprocal, the head column by column with the logistic function spelt out. No finiteness of the inputs is used.
-/
import proofs.«107298_j55241869361537_1_alg».proof.Defs
import proofs.«107298_j55241869361537_1_alg».proof.Proof.Gen.Kernel
import proofs.«107298_j55241869361537_1_alg».proof.Proof.Gen.Kernel.Skeleton
import proofs.«107298_j55241869361537_1_alg».proof.Proof.Gen.Kernel.Launch
import proofs.«107298_j55241869361537_1_alg».proof.Proof.Gen.Kernel.Points
import proofs.«107298_j55241869361537_1_alg».proof.Proof.Gen.Kernel.Frame
import proofs.«107298_j55241869361537_1_alg».proof.Proof.Gen.KernelIdeal
import proofs.«107298_j55241869361537_1_alg».proof.Proof.Gen.KernelIdeal.Skeleton
import proofs.«107298_j55241869361537_1_alg».proof.Proof.Gen.KernelIdeal.Launch
import proofs.«107298_j55241869361537_1_alg».proof.Proof.Gen.KernelIdeal.Points
import proofs.«107298_j55241869361537_1_alg».proof.Proof.Gen.KernelIdeal.Frame
import proofs.«107298_j55241869361537_1_alg».proof.Proof.Gen.ReferenceIdeal
import proofs.«107298_j55241869361537_1_alg».proof.Proof.Gen.ReferenceIdeal.Run
import proofs.«107298_j55241869361537_1_alg».proof.Proof.Gen.ReferenceIdeal.Read
import proofs.«107298_j55241869361537_1_alg».proof.Proof.Gen.Pre_finite_inputs
import proofs.«107298_j55241869361537_1_alg».proof.Proof.KernelRun
import proofs.«107298_j55241869361537_1_alg».proof.Proof.Fold
import proofs.«107298_j55241869361537_1_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the twelve arguments both idealized programs end with the network's output of those
    arguments: the kernel by the fold through its segments, the reference stage by stage. -/
theorem algebraic : Cert.algebraic_KernelIdeal_ReferenceIdeal := by
  intro m ρ m' ρ' _ hagree
  refine ⟨fun c => Cert.KernelIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Fold.W8_v44 m ρ c), (h c).2⟩)
      (Cert.KernelIdeal.Whole.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v88_eq, Cert.Bridge.ref_out]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
